-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg6 : FVec F S3x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  main_v23

def fn {F : FTy → Type} [FloatOps F] (main_arg0 : FVec F S50000x128 .f32) (main_arg1 : IVec S2x800000 32) (main_arg2 : IVec S50000 32) (main_arg3 : FVec F S3x128x128 .f32) (main_arg4 : FVec F S3x128 .f32) (main_arg5 : FVec F S3x128x128 .f32) (main_arg6 : FVec F S3x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg6 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S50000x1 : Shape := ⟨2, ![50000, 1]⟩
abbrev S5000x512 : Shape := ⟨2, ![5000, 512]⟩

abbrev nBuf : Space → Nat
  | .hbm => 102
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S3x128x128, .f32⟩
  | .hbm, ⟨4, _⟩ => ⟨S3x128, .f32⟩
  | .hbm, ⟨5, _⟩ => ⟨S3x128x128, .f32⟩
  | .hbm, ⟨6, _⟩ => ⟨S3x128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S3x128x128, .bf16⟩
  | .hbm, ⟨12, _⟩ => ⟨S3x128x128, .bf16⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S_, .f32⟩
  | .hbm, ⟨23, _⟩ => ⟨S50000x128, .f32⟩
  | .hbm, ⟨24, _⟩ => ⟨S800000x1, .i32⟩
  | .hbm, ⟨25, _⟩ => ⟨S50000x128, .f32⟩
  | .hbm, ⟨26, _⟩ => ⟨S1x128x128, .bf16⟩
  | .hbm, ⟨27, _⟩ => ⟨S128x128, .bf16⟩
  | .hbm, ⟨28, _⟩ => ⟨S1x128, .f32⟩
  | .hbm, ⟨29, _⟩ => ⟨S128, .f32⟩
  | .hbm, ⟨30, _⟩ => ⟨S1x128x128, .bf16⟩
  | .hbm, ⟨31, _⟩ => ⟨S128x128, .bf16⟩
  | .hbm, ⟨32, _⟩ => ⟨S1x128, .f32⟩
  | .hbm, ⟨33, _⟩ => ⟨S128, .f32⟩
  | .hbm, ⟨34, _⟩ => ⟨S1x128, .f32⟩
  | .hbm, ⟨35, _⟩ => ⟨S1x128, .f32⟩
  | .hbm, ⟨36, _⟩ => ⟨S50000x128, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .f32⟩
  | .hbm, ⟨46, _⟩ => ⟨S_, .f32⟩
  | .hbm, ⟨47, _⟩ => ⟨S50000x128, .f32⟩
  | .hbm, ⟨48, _⟩ => ⟨S800000x1, .i32⟩
  | .hbm, ⟨49, _⟩ => ⟨S50000x128, .f32⟩
  | .hbm, ⟨50, _⟩ => ⟨S1x128x128, .bf16⟩
  | .hbm, ⟨51, _⟩ => ⟨S128x128, .bf16⟩
  | .hbm, ⟨52, _⟩ => ⟨S1x128, .f32⟩
  | .hbm, ⟨53, _⟩ => ⟨S128, .f32⟩
  | .hbm, ⟨54, _⟩ => ⟨S1x128x128, .bf16⟩
  | .hbm, ⟨55, _⟩ => ⟨S128x128, .bf16⟩
  | .hbm, ⟨56, _⟩ => ⟨S1x128, .f32⟩
  | .hbm, ⟨57, _⟩ => ⟨S128, .f32⟩
  | .hbm, ⟨58, _⟩ => ⟨S1x128, .f32⟩
  | .hbm, ⟨59, _⟩ => ⟨S1x128, .f32⟩
  | .hbm, ⟨60, _⟩ => ⟨S50000x128, .f32⟩
  | .hbm, ⟨61, _⟩ => ⟨S_, .i32⟩
  | .hbm, ⟨62, _⟩ => ⟨S800000, .i32⟩
  | .hbm, ⟨63, _⟩ => ⟨S800000, .i1⟩
  | .hbm, ⟨64, _⟩ => ⟨S_, .i32⟩
  | .hbm, ⟨65, _⟩ => ⟨S800000, .i32⟩
  | .hbm, ⟨66, _⟩ => ⟨S800000, .i32⟩
  | .hbm, ⟨67, _⟩ => ⟨S800000, .i32⟩
  | .hbm, ⟨68, _⟩ => ⟨S800000x1, .i32⟩
  | .hbm, ⟨69, _⟩ => ⟨S800000x128, .f32⟩
  | .hbm, ⟨70, _⟩ => ⟨S_, .f32⟩
  | .hbm, ⟨71, _⟩ => ⟨S50000x128, .f32⟩
  | .hbm, ⟨72, _⟩ => ⟨S800000x1, .i32⟩
  | .hbm, ⟨73, _⟩ => ⟨S50000x128, .f32⟩
  | .hbm, ⟨74, _⟩ => ⟨S1x128x128, .bf16⟩
  | .hbm, ⟨75, _⟩ => ⟨S128x128, .bf16⟩
  | .hbm, ⟨76, _⟩ => ⟨S1x128, .f32⟩
  | .hbm, ⟨77, _⟩ => ⟨S128, .f32⟩
  | .hbm, ⟨78, _⟩ => ⟨S1x128x128, .bf16⟩
  | .hbm, ⟨79, _⟩ => ⟨S128x128, .bf16⟩
  | .hbm, ⟨80, _⟩ => ⟨S1x128, .f32⟩
  | .hbm, ⟨81, _⟩ => ⟨S128, .f32⟩
  | .hbm, ⟨82, _⟩ => ⟨S1x128, .f32⟩
  | .hbm, ⟨83, _⟩ => ⟨S1x128, .f32⟩
  | .hbm, ⟨84, _⟩ => ⟨S50000x128, .f32⟩
  | .hbm, ⟨85, _⟩ => ⟨S_, .f32⟩
  | .hbm, ⟨86, _⟩ => ⟨S5000x128, .f32⟩
  | .hbm, ⟨87, _⟩ => ⟨S50000x1, .i32⟩
  | .hbm, ⟨88, _⟩ => ⟨S5000x128, .f32⟩
  | .hbm, ⟨89, _⟩ => ⟨S_, .f32⟩
  | .hbm, ⟨90, _⟩ => ⟨S5000x128, .f32⟩
  | .hbm, ⟨91, _⟩ => ⟨S50000x1, .i32⟩
  | .hbm, ⟨92, _⟩ => ⟨S5000x128, .f32⟩
  | .hbm, ⟨93, _⟩ => ⟨S_, .f32⟩
  | .hbm, ⟨94, _⟩ => ⟨S5000x128, .f32⟩
  | .hbm, ⟨95, _⟩ => ⟨S50000x1, .i32⟩
  | .hbm, ⟨96, _⟩ => ⟨S5000x128, .f32⟩
  | .hbm, ⟨97, _⟩ => ⟨S_, .f32⟩
  | .hbm, ⟨98, _⟩ => ⟨S5000x128, .f32⟩
  | .hbm, ⟨99, _⟩ => ⟨S50000x1, .i32⟩
  | .hbm, ⟨100, _⟩ => ⟨S5000x128, .f32⟩
  | .hbm, ⟨101, _⟩ => ⟨S5000x512, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .bf16⟩
  | .local _ .vmem, ⟨15, _⟩ => ⟨S1x128, .f32⟩
  | .local _ .vmem, ⟨16, _⟩ => ⟨S128x128, .bf16⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .bf16⟩
  | .local _ .vmem, ⟨25, _⟩ => ⟨S1x128, .f32⟩
  | .local _ .vmem, ⟨26, _⟩ => ⟨S128x128, .bf16⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_1 : Ref sig .tc := ⟨.hbm, 37, rfl⟩
abbrev main_v27 : Ref sig .tc := ⟨.hbm, 38, rfl⟩
abbrev main_v28 : Ref sig .tc := ⟨.hbm, 39, rfl⟩
abbrev main_c_2 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_c_4 : Ref sig .tc := ⟨.hbm, 61, rfl⟩
abbrev main_v48 : Ref sig .tc := ⟨.hbm, 62, rfl⟩
abbrev main_v49 : Ref sig .tc := ⟨.hbm, 63, rfl⟩
abbrev main_c_5 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_6 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_7 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_8 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_cst_9 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_cst_10 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S5000x128 : S_.BroadcastsInDim S5000x128 (![] : Fin 0 → Fin S5000x128.rank)
  bcast_S50000_S50000x1_0 : S50000.BroadcastsInDim S50000x1 (![0] : Fin 1 → Fin S50000x1.rank)
  concatenates_S5000x128_S5000x128_S5000x128_S5000x128_S5000x512_d1 : Shape.Concatenates [S5000x128, S5000x128, S5000x128, S5000x128] S5000x512 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  scatter_S5000x128_S50000x1_S50000x128_1_0_0_1_wf : ScatterDims.WF S5000x128 S50000x1 S50000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .bf16 = 32 ∨ (Rect.block (s := S128x128) S128x128.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S5000x128_S50000x1_S50000x128_1_0_0_1 : ScatterDims S5000x128 S50000x1 S50000x128 where
  updateWindowDims := [1]
  insertedWindowDims := [0]
  scatterDimsToOperandDims := [0]
  indexVectorDim := 1
  wf := scatter_S5000x128_S50000x1_S50000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v47) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v59) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v66) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v63) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v67) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v68) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S50000x512 : Shape := ⟨2, ![50000, 512]⟩
abbrev S5000x512 : Shape := ⟨2, ![5000, 512]⟩
abbrev S50000x1 : Shape := ⟨2, ![50000, 1]⟩

abbrev nBuf : Space → Nat
  | .hbm => 115
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S3x128x128, .f32⟩
  | .hbm, ⟨4, _⟩ => ⟨S3x128, .f32⟩
  | .hbm, ⟨5, _⟩ => ⟨S3x128x128, .f32⟩
  | .hbm, ⟨6, _⟩ => ⟨S3x128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S50000x128, .f32⟩
  | .hbm, ⟨25, _⟩ => ⟨S1x128x128, .f32⟩
  | .hbm, ⟨26, _⟩ => ⟨S128x128, .f32⟩
  | .hbm, ⟨27, _⟩ => ⟨S50000x128, .f32⟩
  | .hbm, ⟨28, _⟩ => ⟨S1x128, .f32⟩
  | .hbm, ⟨29, _⟩ => ⟨S128, .f32⟩
  | .hbm, ⟨30, _⟩ => ⟨S1x128, .f32⟩
  | .hbm, ⟨31, _⟩ => ⟨S50000x128, .f32⟩
  | .hbm, ⟨32, _⟩ => ⟨S50000x128, .f32⟩
  | .hbm, ⟨33, _⟩ => ⟨S_, .f32⟩
  | .hbm, ⟨34, _⟩ => ⟨S50000x128, .f32⟩
  | .hbm, ⟨35, _⟩ => ⟨S50000x128, .f32⟩
  | .hbm, ⟨36, _⟩ => ⟨S1x128x128, .f32⟩
  | .hbm, ⟨37, _⟩ => ⟨S128x128, .f32⟩
  | .hbm, ⟨38, _⟩ => ⟨S50000x128, .f32⟩
  | .hbm, ⟨39, _⟩ => ⟨S1x128, .f32⟩
  | .hbm, ⟨40, _⟩ => ⟨S128, .f32⟩
  | .hbm, ⟨41, _⟩ => ⟨S1x128, .f32⟩
  | .hbm, ⟨42, _⟩ => ⟨S50000x128, .f32⟩
  | .hbm, ⟨43, _⟩ => ⟨S50000x128, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S50000x128, .f32⟩
  | .hbm, ⟨58, _⟩ => ⟨S1x128x128, .f32⟩
  | .hbm, ⟨59, _⟩ => ⟨S128x128, .f32⟩
  | .hbm, ⟨60, _⟩ => ⟨S50000x128, .f32⟩
  | .hbm, ⟨61, _⟩ => ⟨S1x128, .f32⟩
  | .hbm, ⟨62, _⟩ => ⟨S128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S1x128x128, .f32⟩
  | .hbm, ⟨70, _⟩ => ⟨S128x128, .f32⟩
  | .hbm, ⟨71, _⟩ => ⟨S50000x128, .f32⟩
  | .hbm, ⟨72, _⟩ => ⟨S1x128, .f32⟩
  | .hbm, ⟨73, _⟩ => ⟨S128, .f32⟩
  | .hbm, ⟨74, _⟩ => ⟨S1x128, .f32⟩
  | .hbm, ⟨75, _⟩ => ⟨S50000x128, .f32⟩
  | .hbm, ⟨76, _⟩ => ⟨S50000x128, .f32⟩
  | .hbm, ⟨77, _⟩ => ⟨S_, .i32⟩
  | .hbm, ⟨78, _⟩ => ⟨S800000, .i32⟩
  | .hbm, ⟨79, _⟩ => ⟨S800000, .i1⟩
  | .hbm, ⟨80, _⟩ => ⟨S_, .i32⟩
  | .hbm, ⟨81, _⟩ => ⟨S800000, .i32⟩
  | .hbm, ⟨82, _⟩ => ⟨S800000, .i32⟩
  | .hbm, ⟨83, _⟩ => ⟨S800000, .i32⟩
  | .hbm, ⟨84, _⟩ => ⟨S800000x1, .i32⟩
  | .hbm, ⟨85, _⟩ => ⟨S800000x128, .f32⟩
  | .hbm, ⟨86, _⟩ => ⟨S_, .f32⟩
  | .hbm, ⟨87, _⟩ => ⟨S50000x128, .f32⟩
  | .hbm, ⟨88, _⟩ => ⟨S800000x1, .i32⟩
  | .hbm, ⟨89, _⟩ => ⟨S50000x128, .f32⟩
  | .hbm, ⟨90, _⟩ => ⟨S50000x128, .f32⟩
  | .hbm, ⟨91, _⟩ => ⟨S1x128x128, .f32⟩
  | .hbm, ⟨92, _⟩ => ⟨S128x128, .f32⟩
  | .hbm, ⟨93, _⟩ => ⟨S50000x128, .f32⟩
  | .hbm, ⟨94, _⟩ => ⟨S1x128, .f32⟩
  | .hbm, ⟨95, _⟩ => ⟨S128, .f32⟩
  | .hbm, ⟨96, _⟩ => ⟨S1x128, .f32⟩
  | .hbm, ⟨97, _⟩ => ⟨S50000x128, .f32⟩
  | .hbm, ⟨98, _⟩ => ⟨S50000x128, .f32⟩
  | .hbm, ⟨99, _⟩ => ⟨S_, .f32⟩
  | .hbm, ⟨100, _⟩ => ⟨S50000x128, .f32⟩
  | .hbm, ⟨101, _⟩ => ⟨S50000x128, .f32⟩
  | .hbm, ⟨102, _⟩ => ⟨S1x128x128, .f32⟩
  | .hbm, ⟨103, _⟩ => ⟨S128x128, .f32⟩
  | .hbm, ⟨104, _⟩ => ⟨S50000x128, .f32⟩
  | .hbm, ⟨105, _⟩ => ⟨S1x128, .f32⟩
  | .hbm, ⟨106, _⟩ => ⟨S128, .f32⟩
  | .hbm, ⟨107, _⟩ => ⟨S1x128, .f32⟩
  | .hbm, ⟨108, _⟩ => ⟨S50000x128, .f32⟩
  | .hbm, ⟨109, _⟩ => ⟨S50000x128, .f32⟩
  | .hbm, ⟨110, _⟩ => ⟨S50000x512, .f32⟩
  | .hbm, ⟨111, _⟩ => ⟨S_, .f32⟩
  | .hbm, ⟨112, _⟩ => ⟨S5000x512, .f32⟩
  | .hbm, ⟨113, _⟩ => ⟨S50000x1, .i32⟩
  | .hbm, ⟨114, _⟩ => ⟨S5000x512, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_cst : Ref sig .tc := ⟨.hbm, 33, rfl⟩
abbrev main_call0_v0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_1 : Ref sig .tc := ⟨.hbm, 44, rfl⟩
abbrev main_v32 : Ref sig .tc := ⟨.hbm, 45, rfl⟩
abbrev main_v33 : Ref sig .tc := ⟨.hbm, 46, rfl⟩
abbrev main_c_2 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_3 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_call1_cst : Ref sig .tc := ⟨.hbm, 66, rfl⟩
abbrev main_call1_v0 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_c_4 : Ref sig .tc := ⟨.hbm, 77, rfl⟩
abbrev main_v60 : Ref sig .tc := ⟨.hbm, 78, rfl⟩
abbrev main_v61 : Ref sig .tc := ⟨.hbm, 79, rfl⟩
abbrev main_c_5 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_6 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_call2_cst : Ref sig .tc := ⟨.hbm, 99, rfl⟩
abbrev main_call2_v0 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_cst_7 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  concatenates_S50000x128_S50000x128_S50000x128_S50000x128_S50000x512_d1 : Shape.Concatenates [S50000x128, S50000x128, S50000x128, S50000x128] S50000x512 1
  bcast_S_S5000x512 : S_.BroadcastsInDim S5000x512 (![] : Fin 0 → Fin S5000x512.rank)
  bcast_S50000_S50000x1_0 : S50000.BroadcastsInDim S50000x1 (![0] : Fin 1 → Fin S50000x1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S5000x512_S50000x1_S50000x512_1_0_0_1_wf : ScatterDims.WF S5000x512 S50000x1 S50000x512 [1] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S5000x512_S50000x1_S50000x512_1_0_0_1 : ScatterDims S5000x512 S50000x1 S50000x512 where
  updateWindowDims := [1]
  insertedWindowDims := [0]
  scatterDimsToOperandDims := [0]
  indexVectorDim := 1
  wf := scatter_S5000x512_S50000x1_S50000x512_1_0_0_1_wf

class Facts : Prop extends Facts₀ where

variable [Facts]
-- ==== Proof.BitsRegion0.lean ====
/-
  Pallas call 0 of the program (one layer's two-matrix perceptron over row tiles), run from ANY contents `V` of the
  TensorCore's buffers at its entry.

  The call walks ten row tiles. At tile `t` the body is handed rows [5000 t, 5000 t + 5000) of the activations and of
  the aggregated messages, the two whole weight matrices and the two bias rows, and it overwrites the output tile with
  one pure function of those six blocks (the payload of its single store). This file states that as the pipeline's
  proof data: after the body every input buffer still holds its block and the output buffer holds that function of the
  blocks; the body's triple is run symbolically, and the obligation follows at every tile.
-/
import proofs.«168674_j7438883357611_2_alg».proof.Proof.Gen.Kernel.Launch
import proofs.«168674_j7438883357611_2_alg».proof.Proof.Gen.Kernel.Skeleton
import proofs.«168674_j7438883357611_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at tile `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's buffer holds its block at every tile, fetched there or not (an unfetched window's block index has
    not moved), for any proof data over these arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's buffer holds its block at every tile, fetched there or not (an unfetched window's block index has
    not moved), for any proof data over these arrays whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's buffer holds its block at every tile, fetched there or not (an unfetched window's block index has
    not moved), for any proof data over these arrays whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's buffer holds its block at every tile, fetched there or not (an unfetched window's block index has
    not moved), for any proof data over these arrays whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's buffer holds its block at every tile, fetched there or not (an unfetched window's block index has
    not moved), for any proof data over these arrays whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's buffer holds its block at every tile, fetched there or not (an unfetched window's block index has
    not moved), for any proof data over these arrays whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0

/-- The output buffer after the body, from the six input blocks: its one store, of the payload of the loads. -/
def out0_6 (x0 : Vec F S5000x128 .f32) (x1 : Vec F S5000x128 .f32) (x2 : Vec F S128x128 .bf16) (x3 : Vec F S1x128 .f32) (x4 : Vec F S128x128 .bf16) (x5 : Vec F S1x128 .f32) : Vec F S5000x128 .f32 :=
  View.canon [⟨r0_0, k0_pay1 (View.ld x0 r0_0) (View.ld x1 r0_0) (View.ld x2 r0_1) (View.ld x3 r0_2) (View.ld x4 r0_1) (View.ld x5 r0_2)⟩]

/-- The one store covers the buffer. -/
theorem cover0_6 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

set_option maxHeartbeats 2000000 in
/-- The body on whole staging buffers, the inputs' at contents `x0 … x5` and the output's at anything, runs to its return
    with the inputs' as they were and the output's at `out0_6` of them. -/
theorem sound_kernel0 (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S5000x128 .f32) (harg7 : arg7.IsWhole)
    (x0 : Vec F S5000x128 .f32) (x1 : Vec F S5000x128 .f32) (x2 : Vec F S128x128 .bf16) (x3 : Vec F S1x128 .f32) (x4 : Vec F S128x128 .bf16) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__gin_mlp_kernel i arg1 harg1 arg2 harg2 arg3 harg3 arg4 harg4 arg5 harg5 arg6 harg6 arg7 harg7) K := by
  simp only [cc0__gin_mlp_kernel_eq_skeleton]; unfold cc0__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-- The call's proof data on core `c`: the arrays as found; after the body at tile `t` every input buffer at its block and
    the output buffer at `out0_6` of the blocks; the invariant the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at tile `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any tile: the input buffers hold their blocks, so the body's triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every tile. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsRegion1.lean ====
/-
  Pallas call 1 of the program (one layer's two-matrix perceptron over row tiles), run from ANY contents `V` of the
  TensorCore's buffers at its entry.

  The call walks ten row tiles. At tile `t` the body is handed rows [5000 t, 5000 t + 5000) of the activations and of
  the aggregated messages, the two whole weight matrices and the two bias rows, and it overwrites the output tile with
  one pure function of those six blocks (the payload of its single store). This file states that as the pipeline's
  proof data: after the body every input buffer still holds its block and the output buffer holds that function of the
  blocks; the body's triple is run symbolically, and the obligation follows at every tile.
-/
import proofs.«168674_j7438883357611_2_alg».proof.Proof.Gen.Kernel.Launch
import proofs.«168674_j7438883357611_2_alg».proof.Proof.Gen.Kernel.Skeleton
import proofs.«168674_j7438883357611_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at tile `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's buffer holds its block at every tile, fetched there or not (an unfetched window's block index has
    not moved), for any proof data over these arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's buffer holds its block at every tile, fetched there or not (an unfetched window's block index has
    not moved), for any proof data over these arrays whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's buffer holds its block at every tile, fetched there or not (an unfetched window's block index has
    not moved), for any proof data over these arrays whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's buffer holds its block at every tile, fetched there or not (an unfetched window's block index has
    not moved), for any proof data over these arrays whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's buffer holds its block at every tile, fetched there or not (an unfetched window's block index has
    not moved), for any proof data over these arrays whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's buffer holds its block at every tile, fetched there or not (an unfetched window's block index has
    not moved), for any proof data over these arrays whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev r1_0 : Rect S5000x128 := Rect.unit (s := S5000x128) ![0, 0] S5000x128.size inb_S5000x128_S5000x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0

/-- The output buffer after the body, from the six input blocks: its one store, of the payload of the loads. -/
def out1_6 (x0 : Vec F S5000x128 .f32) (x1 : Vec F S5000x128 .f32) (x2 : Vec F S128x128 .bf16) (x3 : Vec F S1x128 .f32) (x4 : Vec F S128x128 .bf16) (x5 : Vec F S1x128 .f32) : Vec F S5000x128 .f32 :=
  View.canon [⟨r1_0, k1_pay1 (View.ld x0 r1_0) (View.ld x1 r1_0) (View.ld x2 r1_1) (View.ld x3 r1_2) (View.ld x4 r1_1) (View.ld x5 r1_2)⟩]

/-- The one store covers the buffer. -/
theorem cover1_6 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

set_option maxHeartbeats 2000000 in
/-- The body on whole staging buffers, the inputs' at contents `x0 … x5` and the output's at anything, runs to its return
    with the inputs' as they were and the output's at `out1_6` of them. -/
theorem sound_kernel1 (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S5000x128 .f32) (harg7 : arg7.IsWhole)
    (x0 : Vec F S5000x128 .f32) (x1 : Vec F S5000x128 .f32) (x2 : Vec F S128x128 .bf16) (x3 : Vec F S1x128 .f32) (x4 : Vec F S128x128 .bf16) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__gin_mlp_kernel i arg1 harg1 arg2 harg2 arg3 harg3 arg4 harg4 arg5 harg5 arg6 harg6 arg7 harg7) K := by
  simp only [cc1__gin_mlp_kernel_eq_skeleton]; unfold cc1__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-- The call's proof data on core `c`: the arrays as found; after the body at tile `t` every input buffer at its block and
    the output buffer at `out1_6` of the blocks; the invariant the scoped rest and the generator register, untouched;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at tile `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any tile: the input buffers hold their blocks, so the body's triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every tile. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsRegion2.lean ====
/-
  Pallas call 2 of the program (one layer's two-matrix perceptron over row tiles), run from ANY contents `V` of the
  TensorCore's buffers at its entry.

  The call walks ten row tiles. At tile `t` the body is handed rows [5000 t, 5000 t + 5000) of the activations and of
  the aggregated messages, the two whole weight matrices and the two bias rows, and it overwrites the output tile with
  one pure function of those six blocks (the payload of its single store). This file states that as the pipeline's
  proof data: after the body every input buffer still holds its block and the output buffer holds that function of the
  blocks; the body's triple is run symbolically, and the obligation follows at every tile.
-/
import proofs.«168674_j7438883357611_2_alg».proof.Proof.Gen.Kernel.Launch
import proofs.«168674_j7438883357611_2_alg».proof.Proof.Gen.Kernel.Skeleton
import proofs.«168674_j7438883357611_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at tile `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's buffer holds its block at every tile, fetched there or not (an unfetched window's block index has
    not moved), for any proof data over these arrays whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's buffer holds its block at every tile, fetched there or not (an unfetched window's block index has
    not moved), for any proof data over these arrays whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's buffer holds its block at every tile, fetched there or not (an unfetched window's block index has
    not moved), for any proof data over these arrays whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's buffer holds its block at every tile, fetched there or not (an unfetched window's block index has
    not moved), for any proof data over these arrays whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's buffer holds its block at every tile, fetched there or not (an unfetched window's block index has
    not moved), for any proof data over these arrays whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's buffer holds its block at every tile, fetched there or not (an unfetched window's block index has
    not moved), for any proof data over these arrays whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev r2_0 : Rect S5000x128 := Rect.unit (s := S5000x128) ![0, 0] S5000x128.size inb_S5000x128_S5000x128_0_0
abbrev r2_1 : Rect S128x128 := Rect.unit (s := S128x128) ![0, 0] S128x128.size inb_S128x128_S128x128_0_0
abbrev r2_2 : Rect S1x128 := Rect.unit (s := S1x128) ![0, 0] S1x128.size inb_S1x128_S1x128_0_0

/-- The output buffer after the body, from the six input blocks: its one store, of the payload of the loads. -/
def out2_6 (x0 : Vec F S5000x128 .f32) (x1 : Vec F S5000x128 .f32) (x2 : Vec F S128x128 .bf16) (x3 : Vec F S1x128 .f32) (x4 : Vec F S128x128 .bf16) (x5 : Vec F S1x128 .f32) : Vec F S5000x128 .f32 :=
  View.canon [⟨r2_0, k2_pay1 (View.ld x0 r2_0) (View.ld x1 r2_0) (View.ld x2 r2_1) (View.ld x3 r2_2) (View.ld x4 r2_1) (View.ld x5 r2_2)⟩]

/-- The one store covers the buffer. -/
theorem cover2_6 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

set_option maxHeartbeats 2000000 in
/-- The body on whole staging buffers, the inputs' at contents `x0 … x5` and the output's at anything, runs to its return
    with the inputs' as they were and the output's at `out2_6` of them. -/
theorem sound_kernel2 (c : Dev nD) (E : Set ℕ) (i : grid2.Coords) (arg1 : Memref sig .tc .vmem S5000x128 .f32) (harg1 : arg1.IsWhole) (arg2 : Memref sig .tc .vmem S5000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S5000x128 .f32) (harg7 : arg7.IsWhole)
    (x0 : Vec F S5000x128 .f32) (x1 : Vec F S5000x128 .f32) (x2 : Vec F S128x128 .bf16) (x3 : Vec F S1x128 .f32) (x4 : Vec F S128x128 .bf16) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__gin_mlp_kernel i arg1 harg1 arg2 harg2 arg3 harg3 arg4 harg4 arg5 harg5 arg6 harg6 arg7 harg7) K := by
  simp only [cc2__gin_mlp_kernel_eq_skeleton]; unfold cc2__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-- The call's proof data on core `c`: the arrays as found; after the body at tile `t` every input buffer at its block and
    the output buffer at `out2_6` of the blocks; the invariant the scoped rest and the generator register, untouched;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at tile `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any tile: the input buffers hold their blocks, so the body's triple applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every tile. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.BitsRun.lean ====
/-
  The whole run of the program, from the launch to the return.

  @main is four stretches of host operations around three pallas calls. The buffer contents at the seven boundaries are
  a fold from the launch memory: a host stretch applies its operations; a pallas call leaves its arrays at what the
  pipeline's write-backs make of them and everything else as entered. Every weakly fair execution ends with every
  unscoped buffer at the last term of that fold. No host operation and no pallas call writes an argument array, so each
  argument reads back, through the fold, as launched: the frame.
-/
import proofs.«168674_j7438883357611_2_alg».proof.Proof.BitsRegion0
import proofs.«168674_j7438883357611_2_alg».proof.Proof.BitsRegion1
import proofs.«168674_j7438883357611_2_alg».proof.Proof.BitsRegion2
import proofs.«168674_j7438883357611_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 (c : Dev nD) : Valuation τ sig (Elt F) := fun b => m (c, b)
/-- After the first host stretch (call 0's entry). -/
abbrev W1 (c : Dev nD) : Valuation τ sig (Elt F) := StableHlo.after hostOps0 (W0 m c)
abbrev B1 : (c : Dev nD) → (b : Ref sig .tc) → Buf (Elt F) ((c : Thread nD τ).loc b) := fun c b => W1 m c b

/-- At call 0's exit: its arrays at what the pipeline leaves (the inputs as entered, the output's write-backs folded),
    every other buffer as entered. -/
def W2 (c : Dev nD) : Valuation τ sig (Elt F) :=
  Pipeline.withArrays spec0 c (W1 m c) fun w => (dat0 (B1 m) c).arrAt w cfg0.N
theorem W2_arr (c : Dev nD) (w : Fin cfg0.W) :
    W2 m c (Proc.devRef .tc (Pipeline.arrRef spec0 w)) = (dat0 (B1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev B2 : (c : Dev nD) → (b : Ref sig .tc) → Buf (Elt F) ((c : Thread nD τ).loc b) := fun c b => W2 m c b
theorem hF0 (c : Dev nD) (w : Fin cfg0.W) : (dat0 (B1 m) c).arrAt w cfg0.N = B2 m c (Pipeline.arrRef spec0 w) :=
  (W2_arr m c w).symm
theorem hrest0 (c : Dev nD) : ∀ b, b ∉ Finset.univ.image (Pipeline.arrRef spec0) → B2 m c b = B1 m c b :=
  fun b hb => W2_of_ne m c b fun w e => hb (Finset.mem_image.mpr ⟨w, Finset.mem_univ _, e⟩)

/-- After the host stretch that follows call 0. -/
abbrev W3 (c : Dev nD) : Valuation τ sig (Elt F) := StableHlo.after hostOps1 (W2 m c)
abbrev B3 : (c : Dev nD) → (b : Ref sig .tc) → Buf (Elt F) ((c : Thread nD τ).loc b) := fun c b => W3 m c b

/-- At call 1's exit: its arrays at what the pipeline leaves (the inputs as entered, the output's write-backs folded),
    every other buffer as entered. -/
def W4 (c : Dev nD) : Valuation τ sig (Elt F) :=
  Pipeline.withArrays spec1 c (W3 m c) fun w => (dat1 (B3 m) c).arrAt w cfg1.N
theorem W4_arr (c : Dev nD) (w : Fin cfg1.W) :
    W4 m c (Proc.devRef .tc (Pipeline.arrRef spec1 w)) = (dat1 (B3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references. -/
abbrev B4 : (c : Dev nD) → (b : Ref sig .tc) → Buf (Elt F) ((c : Thread nD τ).loc b) := fun c b => W4 m c b
theorem hF1 (c : Dev nD) (w : Fin cfg1.W) : (dat1 (B3 m) c).arrAt w cfg1.N = B4 m c (Pipeline.arrRef spec1 w) :=
  (W4_arr m c w).symm
theorem hrest1 (c : Dev nD) : ∀ b, b ∉ Finset.univ.image (Pipeline.arrRef spec1) → B4 m c b = B3 m c b :=
  fun b hb => W4_of_ne m c b fun w e => hb (Finset.mem_image.mpr ⟨w, Finset.mem_univ _, e⟩)

/-- After the host stretch that follows call 1. -/
abbrev W5 (c : Dev nD) : Valuation τ sig (Elt F) := StableHlo.after hostOps2 (W4 m c)
abbrev B5 : (c : Dev nD) → (b : Ref sig .tc) → Buf (Elt F) ((c : Thread nD τ).loc b) := fun c b => W5 m c b

/-- At call 2's exit: its arrays at what the pipeline leaves (the inputs as entered, the output's write-backs folded),
    every other buffer as entered. -/
def W6 (c : Dev nD) : Valuation τ sig (Elt F) :=
  Pipeline.withArrays spec2 c (W5 m c) fun w => (dat2 (B5 m) c).arrAt w cfg2.N
theorem W6_arr (c : Dev nD) (w : Fin cfg2.W) :
    W6 m c (Proc.devRef .tc (Pipeline.arrRef spec2 w)) = (dat2 (B5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same read at the TensorCore's references. -/
abbrev B6 : (c : Dev nD) → (b : Ref sig .tc) → Buf (Elt F) ((c : Thread nD τ).loc b) := fun c b => W6 m c b
theorem hF2 (c : Dev nD) (w : Fin cfg2.W) : (dat2 (B5 m) c).arrAt w cfg2.N = B6 m c (Pipeline.arrRef spec2 w) :=
  (W6_arr m c w).symm
theorem hrest2 (c : Dev nD) : ∀ b, b ∉ Finset.univ.image (Pipeline.arrRef spec2) → B6 m c b = B5 m c b :=
  fun b hb => W6_of_ne m c b fun w e => hb (Finset.mem_image.mpr ⟨w, Finset.mem_univ _, e⟩)

/-- After the host stretch that follows call 2. -/
abbrev W7 (c : Dev nD) : Valuation τ sig (Elt F) := StableHlo.after hostOps3 (W6 m c)
abbrev B7 : (c : Dev nD) → (b : Ref sig .tc) → Buf (Elt F) ((c : Thread nD τ).loc b) := fun c b => W7 m c b

/-! ## The arguments end as launched -/

theorem W7_main_arg0 (c : Dev nD) : W7 m c (Proc.devRef .tc main_arg0) = m ((c : Thread nD τ).loc main_arg0) :=
  calc W7 m c (Proc.devRef .tc main_arg0)
    _ = W6 m c (Proc.devRef .tc main_arg0) := StableHlo.after_of_writes_sub hostOps3 _ hostOps3_writes (r := main_arg0) (by decide)
    _ = W5 m c (Proc.devRef .tc main_arg0) := W6_of_ne m c main_arg0 (by decide)
    _ = W4 m c (Proc.devRef .tc main_arg0) := StableHlo.after_of_writes_sub hostOps2 _ hostOps2_writes (r := main_arg0) (by decide)
    _ = W3 m c (Proc.devRef .tc main_arg0) := W4_of_ne m c main_arg0 (by decide)
    _ = W2 m c (Proc.devRef .tc main_arg0) := StableHlo.after_of_writes_sub hostOps1 _ hostOps1_writes (r := main_arg0) (by decide)
    _ = W1 m c (Proc.devRef .tc main_arg0) := (W2_arr m c 0).trans (((dat0 (B1 m) c).arrAt_in 0 rfl _).trans (A_eq0 (B1 m) c 0))
    _ = W0 m c (Proc.devRef .tc main_arg0) := StableHlo.after_of_writes_sub hostOps0 _ hostOps0_writes (r := main_arg0) (by decide)
    _ = m ((c : Thread nD τ).loc main_arg0) := rfl
theorem W7_main_arg1 (c : Dev nD) : W7 m c (Proc.devRef .tc main_arg1) = m ((c : Thread nD τ).loc main_arg1) :=
  calc W7 m c (Proc.devRef .tc main_arg1)
    _ = W6 m c (Proc.devRef .tc main_arg1) := StableHlo.after_of_writes_sub hostOps3 _ hostOps3_writes (r := main_arg1) (by decide)
    _ = W5 m c (Proc.devRef .tc main_arg1) := W6_of_ne m c main_arg1 (by decide)
    _ = W4 m c (Proc.devRef .tc main_arg1) := StableHlo.after_of_writes_sub hostOps2 _ hostOps2_writes (r := main_arg1) (by decide)
    _ = W3 m c (Proc.devRef .tc main_arg1) := W4_of_ne m c main_arg1 (by decide)
    _ = W2 m c (Proc.devRef .tc main_arg1) := StableHlo.after_of_writes_sub hostOps1 _ hostOps1_writes (r := main_arg1) (by decide)
    _ = W1 m c (Proc.devRef .tc main_arg1) := W2_of_ne m c main_arg1 (by decide)
    _ = W0 m c (Proc.devRef .tc main_arg1) := StableHlo.after_of_writes_sub hostOps0 _ hostOps0_writes (r := main_arg1) (by decide)
    _ = m ((c : Thread nD τ).loc main_arg1) := rfl
theorem W7_main_arg2 (c : Dev nD) : W7 m c (Proc.devRef .tc main_arg2) = m ((c : Thread nD τ).loc main_arg2) :=
  calc W7 m c (Proc.devRef .tc main_arg2)
    _ = W6 m c (Proc.devRef .tc main_arg2) := StableHlo.after_of_writes_sub hostOps3 _ hostOps3_writes (r := main_arg2) (by decide)
    _ = W5 m c (Proc.devRef .tc main_arg2) := W6_of_ne m c main_arg2 (by decide)
    _ = W4 m c (Proc.devRef .tc main_arg2) := StableHlo.after_of_writes_sub hostOps2 _ hostOps2_writes (r := main_arg2) (by decide)
    _ = W3 m c (Proc.devRef .tc main_arg2) := W4_of_ne m c main_arg2 (by decide)
    _ = W2 m c (Proc.devRef .tc main_arg2) := StableHlo.after_of_writes_sub hostOps1 _ hostOps1_writes (r := main_arg2) (by decide)
    _ = W1 m c (Proc.devRef .tc main_arg2) := W2_of_ne m c main_arg2 (by decide)
    _ = W0 m c (Proc.devRef .tc main_arg2) := StableHlo.after_of_writes_sub hostOps0 _ hostOps0_writes (r := main_arg2) (by decide)
    _ = m ((c : Thread nD τ).loc main_arg2) := rfl
theorem W7_main_arg3 (c : Dev nD) : W7 m c (Proc.devRef .tc main_arg3) = m ((c : Thread nD τ).loc main_arg3) :=
  calc W7 m c (Proc.devRef .tc main_arg3)
    _ = W6 m c (Proc.devRef .tc main_arg3) := StableHlo.after_of_writes_sub hostOps3 _ hostOps3_writes (r := main_arg3) (by decide)
    _ = W5 m c (Proc.devRef .tc main_arg3) := W6_of_ne m c main_arg3 (by decide)
    _ = W4 m c (Proc.devRef .tc main_arg3) := StableHlo.after_of_writes_sub hostOps2 _ hostOps2_writes (r := main_arg3) (by decide)
    _ = W3 m c (Proc.devRef .tc main_arg3) := W4_of_ne m c main_arg3 (by decide)
    _ = W2 m c (Proc.devRef .tc main_arg3) := StableHlo.after_of_writes_sub hostOps1 _ hostOps1_writes (r := main_arg3) (by decide)
    _ = W1 m c (Proc.devRef .tc main_arg3) := W2_of_ne m c main_arg3 (by decide)
    _ = W0 m c (Proc.devRef .tc main_arg3) := StableHlo.after_of_writes_sub hostOps0 _ hostOps0_writes (r := main_arg3) (by decide)
    _ = m ((c : Thread nD τ).loc main_arg3) := rfl
theorem W7_main_arg4 (c : Dev nD) : W7 m c (Proc.devRef .tc main_arg4) = m ((c : Thread nD τ).loc main_arg4) :=
  calc W7 m c (Proc.devRef .tc main_arg4)
    _ = W6 m c (Proc.devRef .tc main_arg4) := StableHlo.after_of_writes_sub hostOps3 _ hostOps3_writes (r := main_arg4) (by decide)
    _ = W5 m c (Proc.devRef .tc main_arg4) := W6_of_ne m c main_arg4 (by decide)
    _ = W4 m c (Proc.devRef .tc main_arg4) := StableHlo.after_of_writes_sub hostOps2 _ hostOps2_writes (r := main_arg4) (by decide)
    _ = W3 m c (Proc.devRef .tc main_arg4) := W4_of_ne m c main_arg4 (by decide)
    _ = W2 m c (Proc.devRef .tc main_arg4) := StableHlo.after_of_writes_sub hostOps1 _ hostOps1_writes (r := main_arg4) (by decide)
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl
theorem W7_main_arg5 (c : Dev nD) : W7 m c (Proc.devRef .tc main_arg5) = m ((c : Thread nD τ).loc main_arg5) :=
  calc W7 m c (Proc.devRef .tc main_arg5)
    _ = W6 m c (Proc.devRef .tc main_arg5) := StableHlo.after_of_writes_sub hostOps3 _ hostOps3_writes (r := main_arg5) (by decide)
    _ = W5 m c (Proc.devRef .tc main_arg5) := W6_of_ne m c main_arg5 (by decide)
    _ = W4 m c (Proc.devRef .tc main_arg5) := StableHlo.after_of_writes_sub hostOps2 _ hostOps2_writes (r := main_arg5) (by decide)
    _ = W3 m c (Proc.devRef .tc main_arg5) := W4_of_ne m c main_arg5 (by decide)
    _ = W2 m c (Proc.devRef .tc main_arg5) := StableHlo.after_of_writes_sub hostOps1 _ hostOps1_writes (r := main_arg5) (by decide)
    _ = W1 m c (Proc.devRef .tc main_arg5) := W2_of_ne m c main_arg5 (by decide)
    _ = W0 m c (Proc.devRef .tc main_arg5) := StableHlo.after_of_writes_sub hostOps0 _ hostOps0_writes (r := main_arg5) (by decide)
    _ = m ((c : Thread nD τ).loc main_arg5) := rfl
theorem W7_main_arg6 (c : Dev nD) : W7 m c (Proc.devRef .tc main_arg6) = m ((c : Thread nD τ).loc main_arg6) :=
  calc W7 m c (Proc.devRef .tc main_arg6)
    _ = W6 m c (Proc.devRef .tc main_arg6) := StableHlo.after_of_writes_sub hostOps3 _ hostOps3_writes (r := main_arg6) (by decide)
    _ = W5 m c (Proc.devRef .tc main_arg6) := W6_of_ne m c main_arg6 (by decide)
    _ = W4 m c (Proc.devRef .tc main_arg6) := StableHlo.after_of_writes_sub hostOps2 _ hostOps2_writes (r := main_arg6) (by decide)
    _ = W3 m c (Proc.devRef .tc main_arg6) := W4_of_ne m c main_arg6 (by decide)
    _ = W2 m c (Proc.devRef .tc main_arg6) := StableHlo.after_of_writes_sub hostOps1 _ hostOps1_writes (r := main_arg6) (by decide)
    _ = W1 m c (Proc.devRef .tc main_arg6) := W2_of_ne m c main_arg6 (by decide)
    _ = W0 m c (Proc.devRef .tc main_arg6) := StableHlo.after_of_writes_sub hostOps0 _ hostOps0_writes (r := main_arg6) (by decide)
    _ = m ((c : Thread nD τ).loc main_arg6) := rfl

/-! ## The proof data family and the thread state -/

/-- Every pipeline's proof data, each at its call's entry contents. -/
def pdats : (p : Fin 3) → (c : Dev nD) → Dat τ (Elt F) Unit ℕ (UR sig nD τ) ℕ (Pipeline.pin (pcfgs (F := F)) adm p) c
  | ⟨0, _⟩ => fun c => dat0 (B1 m) c
  | ⟨1, _⟩ => fun c => dat1 (B3 m) c
  | ⟨2, _⟩ => fun c => dat2 (B5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register
    at some state. -/
abbrev Tₙ (c : Dev nD) : sProp 𝕄 := iprop(StableHlo.held (c : Thread nD τ) (Pipeline.ucRefs τ sig) (W7 m c) ∗ ∃ r, prngReg c r)

/-! ## The pallas calls as segments -/

set_option backward.isDefEq.respectTransparency.types false in
/-- Pallas call 0 over the thread state: entered with every unscoped buffer at `W1`, left with them at `W2`. Its
    arrays are split out of the unscoped buffers and put back at the exit contents; the generator register goes into
    the invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (B1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (B1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (B1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (B1 m c) (B2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 over the thread state: entered with every unscoped buffer at `W3`, left with them at `W4`. Its
    arrays are split out of the unscoped buffers and put back at the exit contents; the generator register goes into
    the invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (B3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (B3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (B3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (B3 m c) (B4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 2 over the thread state: entered with every unscoped buffer at `W5`, left with them at `W6`. Its
    arrays are split out of the unscoped buffers and put back at the exit contents; the generator register goes into
    the invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (B5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (B5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (B5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (B5 m c) (B6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]

set_option backward.isDefEq.respectTransparency.types false in
/-- THE RUN: from any memory with zero counters every weakly fair execution of @main on the TensorCores terminates, nothing
    faulting, and every final state holds every unscoped buffer at the last boundary's contents `W7`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-- THE FRAME: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c),
     (h c _ (mem_uc main_arg5 (by decide))).trans (W7_main_arg5 m c),
     (h c _ (mem_uc main_arg6 (by decide))).trans (W7_main_arg6 m c)⟩) (run_all m ρ)

end Cert.Kernel.Hand

end
-- ==== Proof.IdealRegion0.lean ====
/-
  Pallas call 0 of the program (one layer's two-matrix perceptron over row tiles), run from ANY contents `V` of the
  TensorCore's buffers at its entry.

  The call walks ten row tiles. At tile `t` the body is handed rows [5000 t, 5000 t + 5000) of the activations and of
  the aggregated messages, the two whole weight matrices and the two bias rows, and it overwrites the output tile with
  one pure function of those six blocks (the payload of its single store). This file states that as the pipeline's
  proof data: after the body every input buffer still holds its block and the output buffer holds that function of the
  blocks; the body's triple is run symbolically, and the obligation follows at every tile.
-/
import proofs.«168674_j7438883357611_2_alg».proof.Proof.Gen.KernelIdeal.Launch
import proofs.«168674_j7438883357611_2_alg».proof.Proof.Gen.KernelIdeal.Skeleton
import proofs.«168674_j7438883357611_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at tile `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's buffer holds its block at every tile, fetched there or not (an unfetched window's block index has
    not moved), for any proof data over these arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's buffer holds its block at every tile, fetched there or not (an unfetched window's block index has
    not moved), for any proof data over these arrays whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's buffer holds its block at every tile, fetched there or not (an unfetched window's block index has
    not moved), for any proof data over these arrays whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's buffer holds its block at every tile, fetched there or not (an unfetched window's block index has
    not moved), for any proof data over these arrays whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's buffer holds its block at every tile, fetched there or not (an unfetched window's block index has
    not moved), for any proof data over these arrays whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's buffer holds its block at every tile, fetched there or not (an unfetched window's block index has
    not moved), for any proof data over these arrays whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0

/-- The output buffer after the body, from the six input blocks: its one store, of the payload of the loads. -/
def out0_6 (x0 : Vec F S5000x128 .f32) (x1 : Vec F S5000x128 .f32) (x2 : Vec F S128x128 .bf16) (x3 : Vec F S1x128 .f32) (x4 : Vec F S128x128 .bf16) (x5 : Vec F S1x128 .f32) : Vec F S5000x128 .f32 :=
  View.canon [⟨r0_0, k0_pay1 (View.ld x0 r0_0) (View.ld x1 r0_0) (View.ld x2 r0_1) (View.ld x3 r0_2) (View.ld x4 r0_1) (View.ld x5 r0_2)⟩]

/-- The one store covers the buffer. -/
theorem cover0_6 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

set_option maxHeartbeats 2000000 in
/-- The body on whole staging buffers, the inputs' at contents `x0 … x5` and the output's at anything, runs to its return
    with the inputs' as they were and the output's at `out0_6` of them. -/
theorem sound_kernel0 (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S5000x128 .f32) (harg7 : arg7.IsWhole)
    (x0 : Vec F S5000x128 .f32) (x1 : Vec F S5000x128 .f32) (x2 : Vec F S128x128 .bf16) (x3 : Vec F S1x128 .f32) (x4 : Vec F S128x128 .bf16) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__gin_mlp_kernel i arg1 harg1 arg2 harg2 arg3 harg3 arg4 harg4 arg5 harg5 arg6 harg6 arg7 harg7) K := by
  simp only [cc0__gin_mlp_kernel_eq_skeleton]; unfold cc0__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-- The call's proof data on core `c`: the arrays as found; after the body at tile `t` every input buffer at its block and
    the output buffer at `out0_6` of the blocks; the invariant the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at tile `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any tile: the input buffers hold their blocks, so the body's triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every tile. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IdealRegion1.lean ====
/-
  Pallas call 1 of the program (one layer's two-matrix perceptron over row tiles), run from ANY contents `V` of the
  TensorCore's buffers at its entry.

  The call walks ten row tiles. At tile `t` the body is handed rows [5000 t, 5000 t + 5000) of the activations and of
  the aggregated messages, the two whole weight matrices and the two bias rows, and it overwrites the output tile with
  one pure function of those six blocks (the payload of its single store). This file states that as the pipeline's
  proof data: after the body every input buffer still holds its block and the output buffer holds that function of the
  blocks; the body's triple is run symbolically, and the obligation follows at every tile.
-/
import proofs.«168674_j7438883357611_2_alg».proof.Proof.Gen.KernelIdeal.Launch
import proofs.«168674_j7438883357611_2_alg».proof.Proof.Gen.KernelIdeal.Skeleton
import proofs.«168674_j7438883357611_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at tile `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's buffer holds its block at every tile, fetched there or not (an unfetched window's block index has
    not moved), for any proof data over these arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's buffer holds its block at every tile, fetched there or not (an unfetched window's block index has
    not moved), for any proof data over these arrays whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's buffer holds its block at every tile, fetched there or not (an unfetched window's block index has
    not moved), for any proof data over these arrays whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's buffer holds its block at every tile, fetched there or not (an unfetched window's block index has
    not moved), for any proof data over these arrays whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's buffer holds its block at every tile, fetched there or not (an unfetched window's block index has
    not moved), for any proof data over these arrays whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's buffer holds its block at every tile, fetched there or not (an unfetched window's block index has
    not moved), for any proof data over these arrays whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev r1_0 : Rect S5000x128 := Rect.unit (s := S5000x128) ![0, 0] S5000x128.size inb_S5000x128_S5000x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0

/-- The output buffer after the body, from the six input blocks: its one store, of the payload of the loads. -/
def out1_6 (x0 : Vec F S5000x128 .f32) (x1 : Vec F S5000x128 .f32) (x2 : Vec F S128x128 .bf16) (x3 : Vec F S1x128 .f32) (x4 : Vec F S128x128 .bf16) (x5 : Vec F S1x128 .f32) : Vec F S5000x128 .f32 :=
  View.canon [⟨r1_0, k1_pay1 (View.ld x0 r1_0) (View.ld x1 r1_0) (View.ld x2 r1_1) (View.ld x3 r1_2) (View.ld x4 r1_1) (View.ld x5 r1_2)⟩]

/-- The one store covers the buffer. -/
theorem cover1_6 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

set_option maxHeartbeats 2000000 in
/-- The body on whole staging buffers, the inputs' at contents `x0 … x5` and the output's at anything, runs to its return
    with the inputs' as they were and the output's at `out1_6` of them. -/
theorem sound_kernel1 (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S5000x128 .f32) (harg7 : arg7.IsWhole)
    (x0 : Vec F S5000x128 .f32) (x1 : Vec F S5000x128 .f32) (x2 : Vec F S128x128 .bf16) (x3 : Vec F S1x128 .f32) (x4 : Vec F S128x128 .bf16) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__gin_mlp_kernel i arg1 harg1 arg2 harg2 arg3 harg3 arg4 harg4 arg5 harg5 arg6 harg6 arg7 harg7) K := by
  simp only [cc1__gin_mlp_kernel_eq_skeleton]; unfold cc1__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-- The call's proof data on core `c`: the arrays as found; after the body at tile `t` every input buffer at its block and
    the output buffer at `out1_6` of the blocks; the invariant the scoped rest and the generator register, untouched;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at tile `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any tile: the input buffers hold their blocks, so the body's triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every tile. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IdealRegion2.lean ====
/-
  Pallas call 2 of the program (one layer's two-matrix perceptron over row tiles), run from ANY contents `V` of the
  TensorCore's buffers at its entry.

  The call walks ten row tiles. At tile `t` the body is handed rows [5000 t, 5000 t + 5000) of the activations and of
  the aggregated messages, the two whole weight matrices and the two bias rows, and it overwrites the output tile with
  one pure function of those six blocks (the payload of its single store). This file states that as the pipeline's
  proof data: after the body every input buffer still holds its block and the output buffer holds that function of the
  blocks; the body's triple is run symbolically, and the obligation follows at every tile.
-/
import proofs.«168674_j7438883357611_2_alg».proof.Proof.Gen.KernelIdeal.Launch
import proofs.«168674_j7438883357611_2_alg».proof.Proof.Gen.KernelIdeal.Skeleton
import proofs.«168674_j7438883357611_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at tile `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's buffer holds its block at every tile, fetched there or not (an unfetched window's block index has
    not moved), for any proof data over these arrays whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's buffer holds its block at every tile, fetched there or not (an unfetched window's block index has
    not moved), for any proof data over these arrays whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's buffer holds its block at every tile, fetched there or not (an unfetched window's block index has
    not moved), for any proof data over these arrays whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's buffer holds its block at every tile, fetched there or not (an unfetched window's block index has
    not moved), for any proof data over these arrays whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's buffer holds its block at every tile, fetched there or not (an unfetched window's block index has
    not moved), for any proof data over these arrays whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's buffer holds its block at every tile, fetched there or not (an unfetched window's block index has
    not moved), for any proof data over these arrays whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev r2_0 : Rect S5000x128 := Rect.unit (s := S5000x128) ![0, 0] S5000x128.size inb_S5000x128_S5000x128_0_0
abbrev r2_1 : Rect S128x128 := Rect.unit (s := S128x128) ![0, 0] S128x128.size inb_S128x128_S128x128_0_0
abbrev r2_2 : Rect S1x128 := Rect.unit (s := S1x128) ![0, 0] S1x128.size inb_S1x128_S1x128_0_0

/-- The output buffer after the body, from the six input blocks: its one store, of the payload of the loads. -/
def out2_6 (x0 : Vec F S5000x128 .f32) (x1 : Vec F S5000x128 .f32) (x2 : Vec F S128x128 .bf16) (x3 : Vec F S1x128 .f32) (x4 : Vec F S128x128 .bf16) (x5 : Vec F S1x128 .f32) : Vec F S5000x128 .f32 :=
  View.canon [⟨r2_0, k2_pay1 (View.ld x0 r2_0) (View.ld x1 r2_0) (View.ld x2 r2_1) (View.ld x3 r2_2) (View.ld x4 r2_1) (View.ld x5 r2_2)⟩]

/-- The one store covers the buffer. -/
theorem cover2_6 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

set_option maxHeartbeats 2000000 in
/-- The body on whole staging buffers, the inputs' at contents `x0 … x5` and the output's at anything, runs to its return
    with the inputs' as they were and the output's at `out2_6` of them. -/
theorem sound_kernel2 (c : Dev nD) (E : Set ℕ) (i : grid2.Coords) (arg1 : Memref sig .tc .vmem S5000x128 .f32) (harg1 : arg1.IsWhole) (arg2 : Memref sig .tc .vmem S5000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S5000x128 .f32) (harg7 : arg7.IsWhole)
    (x0 : Vec F S5000x128 .f32) (x1 : Vec F S5000x128 .f32) (x2 : Vec F S128x128 .bf16) (x3 : Vec F S1x128 .f32) (x4 : Vec F S128x128 .bf16) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__gin_mlp_kernel i arg1 harg1 arg2 harg2 arg3 harg3 arg4 harg4 arg5 harg5 arg6 harg6 arg7 harg7) K := by
  simp only [cc2__gin_mlp_kernel_eq_skeleton]; unfold cc2__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-- The call's proof data on core `c`: the arrays as found; after the body at tile `t` every input buffer at its block and
    the output buffer at `out2_6` of the blocks; the invariant the scoped rest and the generator register, untouched;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at tile `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any tile: the input buffers hold their blocks, so the body's triple applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every tile. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.IdealRun.lean ====
/-
  The whole run of the program, from the launch to the return.

  @main is four stretches of host operations around three pallas calls. The buffer contents at the seven boundaries are
  a fold from the launch memory: a host stretch applies its operations; a pallas call leaves its arrays at what the
  pipeline's write-backs make of them and everything else as entered. Every weakly fair execution ends with every
  unscoped buffer at the last term of that fold. No host operation and no pallas call writes an argument array, so each
  argument reads back, through the fold, as launched: the frame.
-/
import proofs.«168674_j7438883357611_2_alg».proof.Proof.IdealRegion0
import proofs.«168674_j7438883357611_2_alg».proof.Proof.IdealRegion1
import proofs.«168674_j7438883357611_2_alg».proof.Proof.IdealRegion2
import proofs.«168674_j7438883357611_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 (c : Dev nD) : Valuation τ sig (Elt F) := fun b => m (c, b)
/-- After the first host stretch (call 0's entry). -/
abbrev W1 (c : Dev nD) : Valuation τ sig (Elt F) := StableHlo.after hostOps0 (W0 m c)
abbrev B1 : (c : Dev nD) → (b : Ref sig .tc) → Buf (Elt F) ((c : Thread nD τ).loc b) := fun c b => W1 m c b

/-- At call 0's exit: its arrays at what the pipeline leaves (the inputs as entered, the output's write-backs folded),
    every other buffer as entered. -/
def W2 (c : Dev nD) : Valuation τ sig (Elt F) :=
  Pipeline.withArrays spec0 c (W1 m c) fun w => (dat0 (B1 m) c).arrAt w cfg0.N
theorem W2_arr (c : Dev nD) (w : Fin cfg0.W) :
    W2 m c (Proc.devRef .tc (Pipeline.arrRef spec0 w)) = (dat0 (B1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev B2 : (c : Dev nD) → (b : Ref sig .tc) → Buf (Elt F) ((c : Thread nD τ).loc b) := fun c b => W2 m c b
theorem hF0 (c : Dev nD) (w : Fin cfg0.W) : (dat0 (B1 m) c).arrAt w cfg0.N = B2 m c (Pipeline.arrRef spec0 w) :=
  (W2_arr m c w).symm
theorem hrest0 (c : Dev nD) : ∀ b, b ∉ Finset.univ.image (Pipeline.arrRef spec0) → B2 m c b = B1 m c b :=
  fun b hb => W2_of_ne m c b fun w e => hb (Finset.mem_image.mpr ⟨w, Finset.mem_univ _, e⟩)

/-- After the host stretch that follows call 0. -/
abbrev W3 (c : Dev nD) : Valuation τ sig (Elt F) := StableHlo.after hostOps1 (W2 m c)
abbrev B3 : (c : Dev nD) → (b : Ref sig .tc) → Buf (Elt F) ((c : Thread nD τ).loc b) := fun c b => W3 m c b

/-- At call 1's exit: its arrays at what the pipeline leaves (the inputs as entered, the output's write-backs folded),
    every other buffer as entered. -/
def W4 (c : Dev nD) : Valuation τ sig (Elt F) :=
  Pipeline.withArrays spec1 c (W3 m c) fun w => (dat1 (B3 m) c).arrAt w cfg1.N
theorem W4_arr (c : Dev nD) (w : Fin cfg1.W) :
    W4 m c (Proc.devRef .tc (Pipeline.arrRef spec1 w)) = (dat1 (B3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references. -/
abbrev B4 : (c : Dev nD) → (b : Ref sig .tc) → Buf (Elt F) ((c : Thread nD τ).loc b) := fun c b => W4 m c b
theorem hF1 (c : Dev nD) (w : Fin cfg1.W) : (dat1 (B3 m) c).arrAt w cfg1.N = B4 m c (Pipeline.arrRef spec1 w) :=
  (W4_arr m c w).symm
theorem hrest1 (c : Dev nD) : ∀ b, b ∉ Finset.univ.image (Pipeline.arrRef spec1) → B4 m c b = B3 m c b :=
  fun b hb => W4_of_ne m c b fun w e => hb (Finset.mem_image.mpr ⟨w, Finset.mem_univ _, e⟩)

/-- After the host stretch that follows call 1. -/
abbrev W5 (c : Dev nD) : Valuation τ sig (Elt F) := StableHlo.after hostOps2 (W4 m c)
abbrev B5 : (c : Dev nD) → (b : Ref sig .tc) → Buf (Elt F) ((c : Thread nD τ).loc b) := fun c b => W5 m c b

/-- At call 2's exit: its arrays at what the pipeline leaves (the inputs as entered, the output's write-backs folded),
    every other buffer as entered. -/
def W6 (c : Dev nD) : Valuation τ sig (Elt F) :=
  Pipeline.withArrays spec2 c (W5 m c) fun w => (dat2 (B5 m) c).arrAt w cfg2.N
theorem W6_arr (c : Dev nD) (w : Fin cfg2.W) :
    W6 m c (Proc.devRef .tc (Pipeline.arrRef spec2 w)) = (dat2 (B5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same read at the TensorCore's references. -/
abbrev B6 : (c : Dev nD) → (b : Ref sig .tc) → Buf (Elt F) ((c : Thread nD τ).loc b) := fun c b => W6 m c b
theorem hF2 (c : Dev nD) (w : Fin cfg2.W) : (dat2 (B5 m) c).arrAt w cfg2.N = B6 m c (Pipeline.arrRef spec2 w) :=
  (W6_arr m c w).symm
theorem hrest2 (c : Dev nD) : ∀ b, b ∉ Finset.univ.image (Pipeline.arrRef spec2) → B6 m c b = B5 m c b :=
  fun b hb => W6_of_ne m c b fun w e => hb (Finset.mem_image.mpr ⟨w, Finset.mem_univ _, e⟩)

/-- After the host stretch that follows call 2. -/
abbrev W7 (c : Dev nD) : Valuation τ sig (Elt F) := StableHlo.after hostOps3 (W6 m c)
abbrev B7 : (c : Dev nD) → (b : Ref sig .tc) → Buf (Elt F) ((c : Thread nD τ).loc b) := fun c b => W7 m c b

/-! ## The arguments end as launched -/

theorem W7_main_arg0 (c : Dev nD) : W7 m c (Proc.devRef .tc main_arg0) = m ((c : Thread nD τ).loc main_arg0) :=
  calc W7 m c (Proc.devRef .tc main_arg0)
    _ = W6 m c (Proc.devRef .tc main_arg0) := StableHlo.after_of_writes_sub hostOps3 _ hostOps3_writes (r := main_arg0) (by decide)
    _ = W5 m c (Proc.devRef .tc main_arg0) := W6_of_ne m c main_arg0 (by decide)
    _ = W4 m c (Proc.devRef .tc main_arg0) := StableHlo.after_of_writes_sub hostOps2 _ hostOps2_writes (r := main_arg0) (by decide)
    _ = W3 m c (Proc.devRef .tc main_arg0) := W4_of_ne m c main_arg0 (by decide)
    _ = W2 m c (Proc.devRef .tc main_arg0) := StableHlo.after_of_writes_sub hostOps1 _ hostOps1_writes (r := main_arg0) (by decide)
    _ = W1 m c (Proc.devRef .tc main_arg0) := (W2_arr m c 0).trans (((dat0 (B1 m) c).arrAt_in 0 rfl _).trans (A_eq0 (B1 m) c 0))
    _ = W0 m c (Proc.devRef .tc main_arg0) := StableHlo.after_of_writes_sub hostOps0 _ hostOps0_writes (r := main_arg0) (by decide)
    _ = m ((c : Thread nD τ).loc main_arg0) := rfl
theorem W7_main_arg1 (c : Dev nD) : W7 m c (Proc.devRef .tc main_arg1) = m ((c : Thread nD τ).loc main_arg1) :=
  calc W7 m c (Proc.devRef .tc main_arg1)
    _ = W6 m c (Proc.devRef .tc main_arg1) := StableHlo.after_of_writes_sub hostOps3 _ hostOps3_writes (r := main_arg1) (by decide)
    _ = W5 m c (Proc.devRef .tc main_arg1) := W6_of_ne m c main_arg1 (by decide)
    _ = W4 m c (Proc.devRef .tc main_arg1) := StableHlo.after_of_writes_sub hostOps2 _ hostOps2_writes (r := main_arg1) (by decide)
    _ = W3 m c (Proc.devRef .tc main_arg1) := W4_of_ne m c main_arg1 (by decide)
    _ = W2 m c (Proc.devRef .tc main_arg1) := StableHlo.after_of_writes_sub hostOps1 _ hostOps1_writes (r := main_arg1) (by decide)
    _ = W1 m c (Proc.devRef .tc main_arg1) := W2_of_ne m c main_arg1 (by decide)
    _ = W0 m c (Proc.devRef .tc main_arg1) := StableHlo.after_of_writes_sub hostOps0 _ hostOps0_writes (r := main_arg1) (by decide)
    _ = m ((c : Thread nD τ).loc main_arg1) := rfl
theorem W7_main_arg2 (c : Dev nD) : W7 m c (Proc.devRef .tc main_arg2) = m ((c : Thread nD τ).loc main_arg2) :=
  calc W7 m c (Proc.devRef .tc main_arg2)
    _ = W6 m c (Proc.devRef .tc main_arg2) := StableHlo.after_of_writes_sub hostOps3 _ hostOps3_writes (r := main_arg2) (by decide)
    _ = W5 m c (Proc.devRef .tc main_arg2) := W6_of_ne m c main_arg2 (by decide)
    _ = W4 m c (Proc.devRef .tc main_arg2) := StableHlo.after_of_writes_sub hostOps2 _ hostOps2_writes (r := main_arg2) (by decide)
    _ = W3 m c (Proc.devRef .tc main_arg2) := W4_of_ne m c main_arg2 (by decide)
    _ = W2 m c (Proc.devRef .tc main_arg2) := StableHlo.after_of_writes_sub hostOps1 _ hostOps1_writes (r := main_arg2) (by decide)
    _ = W1 m c (Proc.devRef .tc main_arg2) := W2_of_ne m c main_arg2 (by decide)
    _ = W0 m c (Proc.devRef .tc main_arg2) := StableHlo.after_of_writes_sub hostOps0 _ hostOps0_writes (r := main_arg2) (by decide)
    _ = m ((c : Thread nD τ).loc main_arg2) := rfl
theorem W7_main_arg3 (c : Dev nD) : W7 m c (Proc.devRef .tc main_arg3) = m ((c : Thread nD τ).loc main_arg3) :=
  calc W7 m c (Proc.devRef .tc main_arg3)
    _ = W6 m c (Proc.devRef .tc main_arg3) := StableHlo.after_of_writes_sub hostOps3 _ hostOps3_writes (r := main_arg3) (by decide)
    _ = W5 m c (Proc.devRef .tc main_arg3) := W6_of_ne m c main_arg3 (by decide)
    _ = W4 m c (Proc.devRef .tc main_arg3) := StableHlo.after_of_writes_sub hostOps2 _ hostOps2_writes (r := main_arg3) (by decide)
    _ = W3 m c (Proc.devRef .tc main_arg3) := W4_of_ne m c main_arg3 (by decide)
    _ = W2 m c (Proc.devRef .tc main_arg3) := StableHlo.after_of_writes_sub hostOps1 _ hostOps1_writes (r := main_arg3) (by decide)
    _ = W1 m c (Proc.devRef .tc main_arg3) := W2_of_ne m c main_arg3 (by decide)
    _ = W0 m c (Proc.devRef .tc main_arg3) := StableHlo.after_of_writes_sub hostOps0 _ hostOps0_writes (r := main_arg3) (by decide)
    _ = m ((c : Thread nD τ).loc main_arg3) := rfl
theorem W7_main_arg4 (c : Dev nD) : W7 m c (Proc.devRef .tc main_arg4) = m ((c : Thread nD τ).loc main_arg4) :=
  calc W7 m c (Proc.devRef .tc main_arg4)
    _ = W6 m c (Proc.devRef .tc main_arg4) := StableHlo.after_of_writes_sub hostOps3 _ hostOps3_writes (r := main_arg4) (by decide)
    _ = W5 m c (Proc.devRef .tc main_arg4) := W6_of_ne m c main_arg4 (by decide)
    _ = W4 m c (Proc.devRef .tc main_arg4) := StableHlo.after_of_writes_sub hostOps2 _ hostOps2_writes (r := main_arg4) (by decide)
    _ = W3 m c (Proc.devRef .tc main_arg4) := W4_of_ne m c main_arg4 (by decide)
    _ = W2 m c (Proc.devRef .tc main_arg4) := StableHlo.after_of_writes_sub hostOps1 _ hostOps1_writes (r := main_arg4) (by decide)
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl
theorem W7_main_arg5 (c : Dev nD) : W7 m c (Proc.devRef .tc main_arg5) = m ((c : Thread nD τ).loc main_arg5) :=
  calc W7 m c (Proc.devRef .tc main_arg5)
    _ = W6 m c (Proc.devRef .tc main_arg5) := StableHlo.after_of_writes_sub hostOps3 _ hostOps3_writes (r := main_arg5) (by decide)
    _ = W5 m c (Proc.devRef .tc main_arg5) := W6_of_ne m c main_arg5 (by decide)
    _ = W4 m c (Proc.devRef .tc main_arg5) := StableHlo.after_of_writes_sub hostOps2 _ hostOps2_writes (r := main_arg5) (by decide)
    _ = W3 m c (Proc.devRef .tc main_arg5) := W4_of_ne m c main_arg5 (by decide)
    _ = W2 m c (Proc.devRef .tc main_arg5) := StableHlo.after_of_writes_sub hostOps1 _ hostOps1_writes (r := main_arg5) (by decide)
    _ = W1 m c (Proc.devRef .tc main_arg5) := W2_of_ne m c main_arg5 (by decide)
    _ = W0 m c (Proc.devRef .tc main_arg5) := StableHlo.after_of_writes_sub hostOps0 _ hostOps0_writes (r := main_arg5) (by decide)
    _ = m ((c : Thread nD τ).loc main_arg5) := rfl
theorem W7_main_arg6 (c : Dev nD) : W7 m c (Proc.devRef .tc main_arg6) = m ((c : Thread nD τ).loc main_arg6) :=
  calc W7 m c (Proc.devRef .tc main_arg6)
    _ = W6 m c (Proc.devRef .tc main_arg6) := StableHlo.after_of_writes_sub hostOps3 _ hostOps3_writes (r := main_arg6) (by decide)
    _ = W5 m c (Proc.devRef .tc main_arg6) := W6_of_ne m c main_arg6 (by decide)
    _ = W4 m c (Proc.devRef .tc main_arg6) := StableHlo.after_of_writes_sub hostOps2 _ hostOps2_writes (r := main_arg6) (by decide)
    _ = W3 m c (Proc.devRef .tc main_arg6) := W4_of_ne m c main_arg6 (by decide)
    _ = W2 m c (Proc.devRef .tc main_arg6) := StableHlo.after_of_writes_sub hostOps1 _ hostOps1_writes (r := main_arg6) (by decide)
    _ = W1 m c (Proc.devRef .tc main_arg6) := W2_of_ne m c main_arg6 (by decide)
    _ = W0 m c (Proc.devRef .tc main_arg6) := StableHlo.after_of_writes_sub hostOps0 _ hostOps0_writes (r := main_arg6) (by decide)
    _ = m ((c : Thread nD τ).loc main_arg6) := rfl

/-! ## The proof data family and the thread state -/

/-- Every pipeline's proof data, each at its call's entry contents. -/
def pdats : (p : Fin 3) → (c : Dev nD) → Dat τ (Elt F) Unit ℕ (UR sig nD τ) ℕ (Pipeline.pin (pcfgs (F := F)) adm p) c
  | ⟨0, _⟩ => fun c => dat0 (B1 m) c
  | ⟨1, _⟩ => fun c => dat1 (B3 m) c
  | ⟨2, _⟩ => fun c => dat2 (B5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register
    at some state. -/
abbrev Tₙ (c : Dev nD) : sProp 𝕄 := iprop(StableHlo.held (c : Thread nD τ) (Pipeline.ucRefs τ sig) (W7 m c) ∗ ∃ r, prngReg c r)

/-! ## The pallas calls as segments -/

set_option backward.isDefEq.respectTransparency.types false in
/-- Pallas call 0 over the thread state: entered with every unscoped buffer at `W1`, left with them at `W2`. Its
    arrays are split out of the unscoped buffers and put back at the exit contents; the generator register goes into
    the invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (B1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (B1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (B1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (B1 m c) (B2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 over the thread state: entered with every unscoped buffer at `W3`, left with them at `W4`. Its
    arrays are split out of the unscoped buffers and put back at the exit contents; the generator register goes into
    the invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (B3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (B3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (B3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (B3 m c) (B4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 2 over the thread state: entered with every unscoped buffer at `W5`, left with them at `W6`. Its
    arrays are split out of the unscoped buffers and put back at the exit contents; the generator register goes into
    the invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (B5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (B5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (B5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (B5 m c) (B6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]

set_option backward.isDefEq.respectTransparency.types false in
/-- THE RUN: from any memory with zero counters every weakly fair execution of @main on the TensorCores terminates, nothing
    faulting, and every final state holds every unscoped buffer at the last boundary's contents `W7`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-- THE FRAME: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c),
     (h c _ (mem_uc main_arg5 (by decide))).trans (W7_main_arg5 m c),
     (h c _ (mem_uc main_arg6 (by decide))).trans (W7_main_arg6 m c)⟩) (run_all m ρ)

end Cert.KernelIdeal.Hand

end
-- ==== Proof.IdealChain.lean ====
/-
  The buffers the three pallas calls read and the program's result, traced back through the run's boundaries.

  Between the calls the host only gathers neighbour rows, sums them per destination, slices one layer's weights and
  biases out of the stacked ones, and at the end pools the four activation arrays per segment and lays the four pooled
  arrays side by side. This file reads each of those buffers at the boundary where it is used, as the host operations'
  own term of the launch contents and of the arrays the earlier calls left.
-/
import proofs.«168674_j7438883357611_2_alg».proof.Proof.IdealRun
import Idealize.ShloMosaic.Lib.StableHlo.Run
import Idealize.ShloMosaic.PureOps.Ideal
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (c : Dev nD)

/-! ## The host's shared pieces, as functions -/

/-- The edges' source row of the edge list. -/
def srcOf (e : IVec S2x800000 32) : IVec S800000 32 :=
  shapeCast S800000 (extractStridedSlice S1x800000 ![0, 0] e slices_S2x800000_S1x800000_0_0) shapeCasts_S1x800000_S800000
/-- The edges' destination row of the edge list. -/
def dstOf (e : IVec S2x800000 32) : IVec S800000 32 :=
  shapeCast S800000 (extractStridedSlice S1x800000 ![1, 0] e slices_S2x800000_S1x800000_1_0) shapeCasts_S1x800000_S800000

/-- The neighbour sum: gather the rows of `h` at the (wrapped) source indices, add them up per destination index. -/
def aggOf (h : FVec Ideal S50000x128 .f32) (src dst : IVec S800000 32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- Layer `l`'s weight matrix out of the stacked, narrowed ones. -/
def w0Of (W : FVec Ideal S3x128x128 .bf16) : FVec Ideal S128x128 .bf16 :=
  shapeCast S128x128 (extractStridedSlice S1x128x128 ![0, 0, 0] W slices_S3x128x128_S1x128x128_0_0_0) shapeCasts_S1x128x128_S128x128
def w1Of (W : FVec Ideal S3x128x128 .bf16) : FVec Ideal S128x128 .bf16 :=
  shapeCast S128x128 (extractStridedSlice S1x128x128 ![1, 0, 0] W slices_S3x128x128_S1x128x128_1_0_0) shapeCasts_S1x128x128_S128x128
def w2Of (W : FVec Ideal S3x128x128 .bf16) : FVec Ideal S128x128 .bf16 :=
  shapeCast S128x128 (extractStridedSlice S1x128x128 ![2, 0, 0] W slices_S3x128x128_S1x128x128_2_0_0) shapeCasts_S1x128x128_S128x128
/-- Layer `l`'s bias row out of the stacked ones, as a one-row matrix. -/
def b0Of (b : FVec Ideal S3x128 .f32) : FVec Ideal S1x128 .f32 :=
  shapeCast S1x128 (shapeCast S128 (extractStridedSlice S1x128 ![0, 0] b slices_S3x128_S1x128_0_0) shapeCasts_S1x128_S128) shapeCasts_S128_S1x128
def b1Of (b : FVec Ideal S3x128 .f32) : FVec Ideal S1x128 .f32 :=
  shapeCast S1x128 (shapeCast S128 (extractStridedSlice S1x128 ![1, 0] b slices_S3x128_S1x128_1_0) shapeCasts_S1x128_S128) shapeCasts_S128_S1x128
def b2Of (b : FVec Ideal S3x128 .f32) : FVec Ideal S1x128 .f32 :=
  shapeCast S1x128 (shapeCast S128 (extractStridedSlice S1x128 ![2, 0] b slices_S3x128_S1x128_2_0) shapeCasts_S1x128_S128) shapeCasts_S128_S1x128
/-- The stacked weights narrowed to the matrix unit's input format. -/
def narrow (W : FVec Ideal S3x128x128 .f32) : FVec Ideal S3x128x128 .bf16 := truncf .bf16 W bitsLt_bf16_f32

/-- The per-segment pooling of one activation array. -/
def poolOf (seg : IVec S50000 32) (u : FVec Ideal S50000x128 .f32) : FVec Ideal S5000x128 .f32 :=
  Host.scatterAdd scatter_S5000x128_S50000x1_S50000x128_1_0_0_1
    (broadcastInDim S5000x128 ![] bcast_S_S5000x128 (constant (F := Ideal) S_ .f32 0x00000000#32))
    (broadcastInDim S50000x1 ![0] bcast_S50000_S50000x1_0 seg) u

/-! ## The launch contents -/

abbrev a0 : FVec Ideal S50000x128 .f32 := m ((c : Thread nD τ).loc main_arg0)
abbrev a1 : IVec S2x800000 32 := m ((c : Thread nD τ).loc main_arg1)
abbrev a2 : IVec S50000 32 := m ((c : Thread nD τ).loc main_arg2)
abbrev a3 : FVec Ideal S3x128x128 .f32 := m ((c : Thread nD τ).loc main_arg3)
abbrev a4 : FVec Ideal S3x128 .f32 := m ((c : Thread nD τ).loc main_arg4)
abbrev a5 : FVec Ideal S3x128x128 .f32 := m ((c : Thread nD τ).loc main_arg5)
abbrev a6 : FVec Ideal S3x128 .f32 := m ((c : Thread nD τ).loc main_arg6)

/-! ## After the first host stretch -/

theorem W1_arg0 : W1 m c (Proc.devRef .tc main_arg0) = a0 m c :=
  StableHlo.after_of_writes_sub hostOps0 _ hostOps0_writes (r := main_arg0) (by decide)
theorem W1_arg2 : W1 m c (Proc.devRef .tc main_arg2) = a2 m c :=
  StableHlo.after_of_writes_sub hostOps0 _ hostOps0_writes (r := main_arg2) (by decide)
theorem W1_arg4 : W1 m c (Proc.devRef .tc main_arg4) = a4 m c :=
  StableHlo.after_of_writes_sub hostOps0 _ hostOps0_writes (r := main_arg4) (by decide)
theorem W1_arg6 : W1 m c (Proc.devRef .tc main_arg6) = a6 m c :=
  StableHlo.after_of_writes_sub hostOps0 _ hostOps0_writes (r := main_arg6) (by decide)
theorem W1_v1 : W1 m c (Proc.devRef .tc main_v1) = srcOf (a1 m c) := by
  show StableHlo.after hostOps0 (W0 m c) (Proc.devRef .tc main_v1) = _
  after_results; rfl
theorem W1_v3 : W1 m c (Proc.devRef .tc main_v3) = dstOf (a1 m c) := by
  show StableHlo.after hostOps0 (W0 m c) (Proc.devRef .tc main_v3) = _
  after_results; rfl
theorem W1_v4 : W1 m c (Proc.devRef .tc main_v4) = narrow (a3 m c) := by
  show StableHlo.after hostOps0 (W0 m c) (Proc.devRef .tc main_v4) = _
  after_results; rfl
theorem W1_v5 : W1 m c (Proc.devRef .tc main_v5) = narrow (a5 m c) := by
  show StableHlo.after hostOps0 (W0 m c) (Proc.devRef .tc main_v5) = _
  after_results; rfl
set_option maxHeartbeats 4000000 in
theorem W1_v15 : W1 m c (Proc.devRef .tc main_v15) = aggOf (a0 m c) (srcOf (a1 m c)) (dstOf (a1 m c)) := by
  show StableHlo.after hostOps0 (W0 m c) (Proc.devRef .tc main_v15) = _
  unfold aggOf srcOf dstOf
  after_results_simp <;> rfl
theorem W1_v17 : W1 m c (Proc.devRef .tc main_v17) = w0Of (narrow (a3 m c)) := by
  show StableHlo.after hostOps0 (W0 m c) (Proc.devRef .tc main_v17) = _
  after_results; rfl
theorem W1_v21 : W1 m c (Proc.devRef .tc main_v21) = w0Of (narrow (a5 m c)) := by
  show StableHlo.after hostOps0 (W0 m c) (Proc.devRef .tc main_v21) = _
  after_results; rfl
theorem W1_v24 : W1 m c (Proc.devRef .tc main_v24) = b0Of (a4 m c) := by
  show StableHlo.after hostOps0 (W0 m c) (Proc.devRef .tc main_v24) = _
  after_results; rfl
theorem W1_v25 : W1 m c (Proc.devRef .tc main_v25) = b0Of (a6 m c) := by
  show StableHlo.after hostOps0 (W0 m c) (Proc.devRef .tc main_v25) = _
  after_results; rfl

/-! ## A buffer no later item writes keeps its contents -/

theorem W2_keep (b : Ref sig .tc) (h : ∀ w, Pipeline.arrRef spec0 w ≠ b) : W2 m c (Proc.devRef .tc b) = W1 m c (Proc.devRef .tc b) :=
  W2_of_ne m c b h
theorem W3_keep (b : Ref sig .tc) (h : b ∉ hostOps1_W) : W3 m c (Proc.devRef .tc b) = W2 m c (Proc.devRef .tc b) :=
  StableHlo.after_of_writes_sub hostOps1 _ hostOps1_writes h
theorem W4_keep (b : Ref sig .tc) (h : ∀ w, Pipeline.arrRef spec1 w ≠ b) : W4 m c (Proc.devRef .tc b) = W3 m c (Proc.devRef .tc b) :=
  W4_of_ne m c b h
theorem W5_keep (b : Ref sig .tc) (h : b ∉ hostOps2_W) : W5 m c (Proc.devRef .tc b) = W4 m c (Proc.devRef .tc b) :=
  StableHlo.after_of_writes_sub hostOps2 _ hostOps2_writes h
theorem W6_keep (b : Ref sig .tc) (h : ∀ w, Pipeline.arrRef spec2 w ≠ b) : W6 m c (Proc.devRef .tc b) = W5 m c (Proc.devRef .tc b) :=
  W6_of_ne m c b h

/-! ## The three calls' outputs -/

/-- What call 0, call 1 and call 2 leave in their output arrays. -/
abbrev h1 : FVec Ideal S50000x128 .f32 := (dat0 (B1 m) c).arrAt 6 cfg0.N
abbrev h2 : FVec Ideal S50000x128 .f32 := (dat1 (B3 m) c).arrAt 6 cfg1.N
abbrev h3 : FVec Ideal S50000x128 .f32 := (dat2 (B5 m) c).arrAt 6 cfg2.N

/-! ## After call 0 and the second host stretch -/

theorem W2_arg0 : W2 m c (Proc.devRef .tc main_arg0) = a0 m c :=
  ((W2_arr m c 0).trans (((dat0 (B1 m) c).arrAt_in 0 rfl _).trans (A_eq0 (B1 m) c 0))).trans (W1_arg0 m c)
theorem W2_arg2 : W2 m c (Proc.devRef .tc main_arg2) = a2 m c := (W2_keep m c main_arg2 (by decide)).trans (W1_arg2 m c)
theorem W2_arg4 : W2 m c (Proc.devRef .tc main_arg4) = a4 m c := (W2_keep m c main_arg4 (by decide)).trans (W1_arg4 m c)
theorem W2_arg6 : W2 m c (Proc.devRef .tc main_arg6) = a6 m c := (W2_keep m c main_arg6 (by decide)).trans (W1_arg6 m c)
theorem W2_v1 : W2 m c (Proc.devRef .tc main_v1) = srcOf (a1 m c) := (W2_keep m c main_v1 (by decide)).trans (W1_v1 m c)
theorem W2_v3 : W2 m c (Proc.devRef .tc main_v3) = dstOf (a1 m c) := (W2_keep m c main_v3 (by decide)).trans (W1_v3 m c)
theorem W2_v4 : W2 m c (Proc.devRef .tc main_v4) = narrow (a3 m c) := (W2_keep m c main_v4 (by decide)).trans (W1_v4 m c)
theorem W2_v5 : W2 m c (Proc.devRef .tc main_v5) = narrow (a5 m c) := (W2_keep m c main_v5 (by decide)).trans (W1_v5 m c)
theorem W2_v26 : W2 m c (Proc.devRef .tc main_v26) = h1 m c := W2_arr m c 6

theorem W3_arg0 : W3 m c (Proc.devRef .tc main_arg0) = a0 m c := (W3_keep m c main_arg0 (by decide)).trans (W2_arg0 m c)
theorem W3_arg2 : W3 m c (Proc.devRef .tc main_arg2) = a2 m c := (W3_keep m c main_arg2 (by decide)).trans (W2_arg2 m c)
theorem W3_arg4 : W3 m c (Proc.devRef .tc main_arg4) = a4 m c := (W3_keep m c main_arg4 (by decide)).trans (W2_arg4 m c)
theorem W3_arg6 : W3 m c (Proc.devRef .tc main_arg6) = a6 m c := (W3_keep m c main_arg6 (by decide)).trans (W2_arg6 m c)
theorem W3_v1 : W3 m c (Proc.devRef .tc main_v1) = srcOf (a1 m c) := (W3_keep m c main_v1 (by decide)).trans (W2_v1 m c)
theorem W3_v3 : W3 m c (Proc.devRef .tc main_v3) = dstOf (a1 m c) := (W3_keep m c main_v3 (by decide)).trans (W2_v3 m c)
theorem W3_v4 : W3 m c (Proc.devRef .tc main_v4) = narrow (a3 m c) := (W3_keep m c main_v4 (by decide)).trans (W2_v4 m c)
theorem W3_v5 : W3 m c (Proc.devRef .tc main_v5) = narrow (a5 m c) := (W3_keep m c main_v5 (by decide)).trans (W2_v5 m c)
theorem W3_v26 : W3 m c (Proc.devRef .tc main_v26) = h1 m c := (W3_keep m c main_v26 (by decide)).trans (W2_v26 m c)
set_option maxHeartbeats 4000000 in
theorem W3_v36 : W3 m c (Proc.devRef .tc main_v36) = aggOf (h1 m c) (srcOf (a1 m c)) (dstOf (a1 m c)) := by
  have e : W3 m c (Proc.devRef .tc main_v36)
      = aggOf (W2 m c (Proc.devRef .tc main_v26)) (W2 m c (Proc.devRef .tc main_v1)) (W2 m c (Proc.devRef .tc main_v3)) := by
    show StableHlo.after hostOps1 (W2 m c) (Proc.devRef .tc main_v36) = _
    unfold aggOf
    after_results_simp <;> rfl
  rw [e, W2_v26, W2_v1, W2_v3]
theorem W3_v38 : W3 m c (Proc.devRef .tc main_v38) = w1Of (narrow (a3 m c)) := by
  have e : W3 m c (Proc.devRef .tc main_v38) = w1Of (W2 m c (Proc.devRef .tc main_v4)) := by
    show StableHlo.after hostOps1 (W2 m c) (Proc.devRef .tc main_v38) = _
    unfold w1Of
    after_results; rfl
  rw [e, W2_v4]
theorem W3_v42 : W3 m c (Proc.devRef .tc main_v42) = w1Of (narrow (a5 m c)) := by
  have e : W3 m c (Proc.devRef .tc main_v42) = w1Of (W2 m c (Proc.devRef .tc main_v5)) := by
    show StableHlo.after hostOps1 (W2 m c) (Proc.devRef .tc main_v42) = _
    unfold w1Of
    after_results; rfl
  rw [e, W2_v5]
theorem W3_v45 : W3 m c (Proc.devRef .tc main_v45) = b1Of (a4 m c) := by
  have e : W3 m c (Proc.devRef .tc main_v45) = b1Of (W2 m c (Proc.devRef .tc main_arg4)) := by
    show StableHlo.after hostOps1 (W2 m c) (Proc.devRef .tc main_v45) = _
    unfold b1Of
    after_results; rfl
  rw [e, W2_arg4]
theorem W3_v46 : W3 m c (Proc.devRef .tc main_v46) = b1Of (a6 m c) := by
  have e : W3 m c (Proc.devRef .tc main_v46) = b1Of (W2 m c (Proc.devRef .tc main_arg6)) := by
    show StableHlo.after hostOps1 (W2 m c) (Proc.devRef .tc main_v46) = _
    unfold b1Of
    after_results; rfl
  rw [e, W2_arg6]

/-! ## After call 1 and the third host stretch -/

theorem W4_arg0 : W4 m c (Proc.devRef .tc main_arg0) = a0 m c := (W4_keep m c main_arg0 (by decide)).trans (W3_arg0 m c)
theorem W4_arg2 : W4 m c (Proc.devRef .tc main_arg2) = a2 m c := (W4_keep m c main_arg2 (by decide)).trans (W3_arg2 m c)
theorem W4_arg4 : W4 m c (Proc.devRef .tc main_arg4) = a4 m c := (W4_keep m c main_arg4 (by decide)).trans (W3_arg4 m c)
theorem W4_arg6 : W4 m c (Proc.devRef .tc main_arg6) = a6 m c := (W4_keep m c main_arg6 (by decide)).trans (W3_arg6 m c)
theorem W4_v1 : W4 m c (Proc.devRef .tc main_v1) = srcOf (a1 m c) := (W4_keep m c main_v1 (by decide)).trans (W3_v1 m c)
theorem W4_v3 : W4 m c (Proc.devRef .tc main_v3) = dstOf (a1 m c) := (W4_keep m c main_v3 (by decide)).trans (W3_v3 m c)
theorem W4_v4 : W4 m c (Proc.devRef .tc main_v4) = narrow (a3 m c) := (W4_keep m c main_v4 (by decide)).trans (W3_v4 m c)
theorem W4_v5 : W4 m c (Proc.devRef .tc main_v5) = narrow (a5 m c) := (W4_keep m c main_v5 (by decide)).trans (W3_v5 m c)
theorem W4_v26 : W4 m c (Proc.devRef .tc main_v26) = h1 m c :=
  ((W4_arr m c 0).trans (((dat1 (B3 m) c).arrAt_in 0 rfl _).trans (A_eq1 (B3 m) c 0))).trans (W3_v26 m c)
theorem W4_v47 : W4 m c (Proc.devRef .tc main_v47) = h2 m c := W4_arr m c 6

theorem W5_arg0 : W5 m c (Proc.devRef .tc main_arg0) = a0 m c := (W5_keep m c main_arg0 (by decide)).trans (W4_arg0 m c)
theorem W5_arg2 : W5 m c (Proc.devRef .tc main_arg2) = a2 m c := (W5_keep m c main_arg2 (by decide)).trans (W4_arg2 m c)
theorem W5_v26 : W5 m c (Proc.devRef .tc main_v26) = h1 m c := (W5_keep m c main_v26 (by decide)).trans (W4_v26 m c)
theorem W5_v47 : W5 m c (Proc.devRef .tc main_v47) = h2 m c := (W5_keep m c main_v47 (by decide)).trans (W4_v47 m c)
set_option maxHeartbeats 4000000 in
theorem W5_v57 : W5 m c (Proc.devRef .tc main_v57) = aggOf (h2 m c) (srcOf (a1 m c)) (dstOf (a1 m c)) := by
  have e : W5 m c (Proc.devRef .tc main_v57)
      = aggOf (W4 m c (Proc.devRef .tc main_v47)) (W4 m c (Proc.devRef .tc main_v1)) (W4 m c (Proc.devRef .tc main_v3)) := by
    show StableHlo.after hostOps2 (W4 m c) (Proc.devRef .tc main_v57) = _
    unfold aggOf
    after_results_simp <;> rfl
  rw [e, W4_v47, W4_v1, W4_v3]
theorem W5_v59 : W5 m c (Proc.devRef .tc main_v59) = w2Of (narrow (a3 m c)) := by
  have e : W5 m c (Proc.devRef .tc main_v59) = w2Of (W4 m c (Proc.devRef .tc main_v4)) := by
    show StableHlo.after hostOps2 (W4 m c) (Proc.devRef .tc main_v59) = _
    unfold w2Of
    after_results; rfl
  rw [e, W4_v4]
theorem W5_v63 : W5 m c (Proc.devRef .tc main_v63) = w2Of (narrow (a5 m c)) := by
  have e : W5 m c (Proc.devRef .tc main_v63) = w2Of (W4 m c (Proc.devRef .tc main_v5)) := by
    show StableHlo.after hostOps2 (W4 m c) (Proc.devRef .tc main_v63) = _
    unfold w2Of
    after_results; rfl
  rw [e, W4_v5]
theorem W5_v66 : W5 m c (Proc.devRef .tc main_v66) = b2Of (a4 m c) := by
  have e : W5 m c (Proc.devRef .tc main_v66) = b2Of (W4 m c (Proc.devRef .tc main_arg4)) := by
    show StableHlo.after hostOps2 (W4 m c) (Proc.devRef .tc main_v66) = _
    unfold b2Of
    after_results; rfl
  rw [e, W4_arg4]
theorem W5_v67 : W5 m c (Proc.devRef .tc main_v67) = b2Of (a6 m c) := by
  have e : W5 m c (Proc.devRef .tc main_v67) = b2Of (W4 m c (Proc.devRef .tc main_arg6)) := by
    show StableHlo.after hostOps2 (W4 m c) (Proc.devRef .tc main_v67) = _
    unfold b2Of
    after_results; rfl
  rw [e, W4_arg6]

/-! ## After call 2, and the result -/

theorem W6_arg0 : W6 m c (Proc.devRef .tc main_arg0) = a0 m c := (W6_keep m c main_arg0 (by decide)).trans (W5_arg0 m c)
theorem W6_arg2 : W6 m c (Proc.devRef .tc main_arg2) = a2 m c := (W6_keep m c main_arg2 (by decide)).trans (W5_arg2 m c)
theorem W6_v26 : W6 m c (Proc.devRef .tc main_v26) = h1 m c := (W6_keep m c main_v26 (by decide)).trans (W5_v26 m c)
theorem W6_v47 : W6 m c (Proc.devRef .tc main_v47) = h2 m c :=
  ((W6_arr m c 0).trans (((dat2 (B5 m) c).arrAt_in 0 rfl _).trans (A_eq2 (B5 m) c 0))).trans (W5_v47 m c)
theorem W6_v68 : W6 m c (Proc.devRef .tc main_v68) = h3 m c := W6_arr m c 6

set_option maxHeartbeats 4000000 in
/-- THE RESULT BUFFER at the end of the run: the four pooled arrays side by side. -/
theorem W7_v81 : W7 m c (Proc.devRef .tc main_v81) = concatenate S5000x512 1
    [⟨S5000x128, poolOf (a2 m c) (a0 m c)⟩, ⟨S5000x128, poolOf (a2 m c) (h1 m c)⟩,
     ⟨S5000x128, poolOf (a2 m c) (h2 m c)⟩, ⟨S5000x128, poolOf (a2 m c) (h3 m c)⟩]
    concatenates_S5000x128_S5000x128_S5000x128_S5000x128_S5000x512_d1 := by
  have e : W7 m c (Proc.devRef .tc main_v81) = concatenate S5000x512 1
      [⟨S5000x128, poolOf (W6 m c (Proc.devRef .tc main_arg2)) (W6 m c (Proc.devRef .tc main_arg0))⟩,
       ⟨S5000x128, poolOf (W6 m c (Proc.devRef .tc main_arg2)) (W6 m c (Proc.devRef .tc main_v26))⟩,
       ⟨S5000x128, poolOf (W6 m c (Proc.devRef .tc main_arg2)) (W6 m c (Proc.devRef .tc main_v47))⟩,
       ⟨S5000x128, poolOf (W6 m c (Proc.devRef .tc main_arg2)) (W6 m c (Proc.devRef .tc main_v68))⟩]
      concatenates_S5000x128_S5000x128_S5000x128_S5000x128_S5000x512_d1 := by
    show StableHlo.after hostOps3 (W6 m c) (Proc.devRef .tc main_v81) = _
    unfold poolOf
    after_results_simp <;> rfl
  rw [e, W6_arg0, W6_arg2, W6_v26, W6_v47, W6_v68]

end Cert.KernelIdeal.Hand

end
-- ==== Proof.LayerEntry.lean ====
/-
  One entry of a row passed through a two-matrix perceptron, as both programs compute it.
-/
import proofs.«168674_j7438883357611_2_alg».proof.Proof.Gen.KernelIdeal.Skeleton
import proofs.«168674_j7438883357611_2_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StackMember

noncomputable section

open scoped BigOperators

namespace Cert.LayerEntry

open Idealize.ShloMosaic Idealize.ShloMosaic.ValueIdx

/-- ONE ENTRY OF A PERCEPTRON ROW: the row `z` times the first matrix `w1`, plus the first bias `c1`, cut below at
    zero, times column `q` of the second matrix `w2`, plus entry `q` of the second bias `c2`. -/
def mlpEntry (z : Fin 128 → EReal) (w1 : Fin 128 → Fin 128 → EReal) (c1 : Fin 128 → EReal)
    (w2 : Fin 128 → Fin 128 → EReal) (c2 : Fin 128 → EReal) (q : Fin 128) : EReal :=
  (∑ k : Fin 128, max ((∑ j : Fin 128, z j * w1 j k) + c1 k) 0 * w2 k q) + c2 q

section Kernel
open Cert.KernelIdeal Cert.KernelIdeal.Gen

/-- A matrix product accumulated into the zero array, read at `(p, q)`: the sum over the contracted coordinate of the
    products of the entries. -/
theorem matmul_entry {φ₁ φ₂ : FTy} (A : FVec Ideal S5000x128 φ₁) (B : FVec Ideal S128x128 φ₂) (p : Fin 5000) (q : Fin 128) :
    matmul dot_S5000x128_S128x128_S5000x128_1_0_0_1_n_n none A B (constant S5000x128 .f32 0x00000000#32) (ix2 p q)
      = ∑ l : Fin 128, A (ix2 p l) * B (ix2 l q) := by
  show matmul (DotDims.plain 5000 128 128) none A B (constant ⟨2, ![5000, 128]⟩ .f32 0x00000000#32) (ix2 p q) = _
  rw [matmul_zero_eq_dotGeneral]
  exact StackMember.dotGeneral_plain_apply none A B p q

/-- The payload the three kernels share once their identity reshapes are dropped. -/
def payCore (x0 x1 : FVec Ideal S5000x128 .f32) (x2 : FVec Ideal S128x128 .bf16) (x3 : FVec Ideal S1x128 .f32)
    (x4 : FVec Ideal S128x128 .bf16) (x5 : FVec Ideal S1x128 .f32) : FVec Ideal S5000x128 .f32 :=
  addf
    (matmul dot_S5000x128_S128x128_S5000x128_1_0_0_1_n_n none
      (truncf .bf16
        (maximumf
          (addf
            (matmul dot_S5000x128_S128x128_S5000x128_1_0_0_1_n_n none (truncf .bf16 (addf x0 x1) bitsLt_bf16_f32) x2
              (constant S5000x128 .f32 0x00000000#32))
            (broadcastTo S5000x128 x3 broadcasts_S1x128_S5000x128))
          (broadcast S5000x128 (Scalar.ofBits .f32 0x00000000#32)))
        bitsLt_bf16_f32)
      x4 (constant S5000x128 .f32 0x00000000#32))
    (broadcastTo S5000x128 x5 broadcasts_S1x128_S5000x128)

/-- The shared payload at `(p, q)` is the perceptron entry of the row `x0[p, ·] + x1[p, ·]`: the narrowing to the matrix
    unit's format is the identity on extended reals, the bias rows are laid along every row, and the cut is at zero. -/
theorem payCore_apply (x0 x1 : FVec Ideal S5000x128 .f32) (x2 : FVec Ideal S128x128 .bf16) (x3 : FVec Ideal S1x128 .f32)
    (x4 : FVec Ideal S128x128 .bf16) (x5 : FVec Ideal S1x128 .f32) (p : Fin 5000) (q : Fin 128) :
    payCore x0 x1 x2 x3 x4 x5 (ix2 p q)
      = mlpEntry (fun j => x0 (ix2 p j) + x1 (ix2 p j)) (fun j k => x2 (ix2 j k)) (fun k => x3 (ix2 (0 : Fin 1) k))
          (fun k q' => x4 (ix2 k q')) (fun q' => x5 (ix2 (0 : Fin 1) q')) q := by
  unfold payCore mlpEntry
  rw [addf_apply, matmul_entry, broadcastTo_1b_ab_apply]
  refine congrArg (· + x5 (ix2 (0 : Fin 1) q)) (Finset.sum_congr rfl (fun k _ => ?_))
  rw [truncf_apply, maximumf_apply, addf_apply, matmul_entry, broadcastTo_1b_ab_apply, broadcast_apply]
  have h0 : (Scalar.ofBits .f32 0x00000000#32 : Ideal .f32) = 0 := Ideal.ofBits_zero_f32
  rw [h0]
  simp only [truncf_apply, addf_apply]

/-- Kernel 0's stored value at `(p, q)` is the perceptron entry of the row `x0[p, ·] + x1[p, ·]` under the loaded
    matrices and biases. -/
theorem pay0_apply (x0 x1 : FVec Ideal S5000x128 .f32) (x2 : FVec Ideal S128x128 .bf16) (x3 : FVec Ideal S1x128 .f32)
    (x4 : FVec Ideal S128x128 .bf16) (x5 : FVec Ideal S1x128 .f32) (p : Fin 5000) (q : Fin 128) :
    Cert.KernelIdeal.Gen.k0_pay1 (F := Ideal) x0 x1 x2 x3 x4 x5 (ix2 p q)
      = mlpEntry (fun j => x0 (ix2 p j) + x1 (ix2 p j)) (fun j k => x2 (ix2 j k)) (fun k => x3 (ix2 (0 : Fin 1) k))
          (fun k q' => x4 (ix2 k q')) (fun q' => x5 (ix2 (0 : Fin 1) q')) q := by
  have e : Cert.KernelIdeal.Gen.k0_pay1 (F := Ideal) x0 x1 x2 x3 x4 x5 = payCore x0 x1 x2 x3 x4 x5 := by
    unfold Cert.KernelIdeal.Gen.k0_pay1 payCore
    simp only [shapeCast_self]
  rw [e]
  exact payCore_apply x0 x1 x2 x3 x4 x5 p q

/-- Kernel 1's stored value at `(p, q)` is the perceptron entry of the row `x0[p, ·] + x1[p, ·]` under the loaded
    matrices and biases. -/
theorem pay1_apply (x0 x1 : FVec Ideal S5000x128 .f32) (x2 : FVec Ideal S128x128 .bf16) (x3 : FVec Ideal S1x128 .f32)
    (x4 : FVec Ideal S128x128 .bf16) (x5 : FVec Ideal S1x128 .f32) (p : Fin 5000) (q : Fin 128) :
    Cert.KernelIdeal.Gen.k1_pay1 (F := Ideal) x0 x1 x2 x3 x4 x5 (ix2 p q)
      = mlpEntry (fun j => x0 (ix2 p j) + x1 (ix2 p j)) (fun j k => x2 (ix2 j k)) (fun k => x3 (ix2 (0 : Fin 1) k))
          (fun k q' => x4 (ix2 k q')) (fun q' => x5 (ix2 (0 : Fin 1) q')) q := by
  have e : Cert.KernelIdeal.Gen.k1_pay1 (F := Ideal) x0 x1 x2 x3 x4 x5 = payCore x0 x1 x2 x3 x4 x5 := by
    unfold Cert.KernelIdeal.Gen.k1_pay1 payCore
    simp only [shapeCast_self]
  rw [e]
  exact payCore_apply x0 x1 x2 x3 x4 x5 p q

/-- Kernel 2's stored value at `(p, q)` is the perceptron entry of the row `x0[p, ·] + x1[p, ·]` under the loaded
    matrices and biases. -/
theorem pay2_apply (x0 x1 : FVec Ideal S5000x128 .f32) (x2 : FVec Ideal S128x128 .bf16) (x3 : FVec Ideal S1x128 .f32)
    (x4 : FVec Ideal S128x128 .bf16) (x5 : FVec Ideal S1x128 .f32) (p : Fin 5000) (q : Fin 128) :
    Cert.KernelIdeal.Gen.k2_pay1 (F := Ideal) x0 x1 x2 x3 x4 x5 (ix2 p q)
      = mlpEntry (fun j => x0 (ix2 p j) + x1 (ix2 p j)) (fun j k => x2 (ix2 j k)) (fun k => x3 (ix2 (0 : Fin 1) k))
          (fun k q' => x4 (ix2 k q')) (fun q' => x5 (ix2 (0 : Fin 1) q')) q := by
  have e : Cert.KernelIdeal.Gen.k2_pay1 (F := Ideal) x0 x1 x2 x3 x4 x5 = payCore x0 x1 x2 x3 x4 x5 := by
    unfold Cert.KernelIdeal.Gen.k2_pay1 payCore
    simp only [shapeCast_self]
  rw [e]
  exact payCore_apply x0 x1 x2 x3 x4 x5 p q

end Kernel

section Operands

/-- A layer's weight matrix as a kernel takes it — the `[3, 128, 128]` stack narrowed to the matrix unit's format
    (the identity on extended reals), its slice at offsets `off` that start at layer `l` and at `0` on the matrix's
    two axes, the slice's leading unit axis dropped — read at `(j, k)` is the stack at `(l, j, k)`. -/
theorem weight_entry_off (W : FVec Ideal ⟨3, ![3, 128, 128]⟩ .f32) (l : Fin 3) (off : Fin 3 → ℕ)
    (h0 : off 0 = l.val) (h1 : off 1 = 0) (h2 : off 2 = 0) (hb : FTy.bits .bf16 < FTy.bits .f32)
    (hs : (⟨3, ![3, 128, 128]⟩ : Shape).Slices off ⟨3, ![1, 128, 128]⟩)
    (hc : (⟨3, ![1, 128, 128]⟩ : Shape).ShapeCasts ⟨2, ![128, 128]⟩) (j k : Fin 128) :
    shapeCast ⟨2, ![128, 128]⟩ (extractStridedSlice ⟨3, ![1, 128, 128]⟩ off (truncf .bf16 W hb) hs) hc (ix2 j k)
      = W (ix3 l j k) := by
  rw [shapeCast_1ab_ab_apply]
  refine (extractStridedSlice_apply off (truncf .bf16 W hb) hs (ix3 (0 : Fin 1) j k) (ix3 l j k) ?_).trans
    (truncf_apply W hb _)
  intro a
  match a with
  | ⟨0, _⟩ => show l.val = off 0 + 0; omega
  | ⟨1, _⟩ => show j.val = off 1 + j.val; omega
  | ⟨2, _⟩ => show k.val = off 2 + k.val; omega

/-- The same with the offsets written `![l, 0, 0]`. -/
theorem weight_entry (W : FVec Ideal ⟨3, ![3, 128, 128]⟩ .f32) (l : Fin 3) (hb : FTy.bits .bf16 < FTy.bits .f32)
    (hs : (⟨3, ![3, 128, 128]⟩ : Shape).Slices ![l.val, 0, 0] ⟨3, ![1, 128, 128]⟩)
    (hc : (⟨3, ![1, 128, 128]⟩ : Shape).ShapeCasts ⟨2, ![128, 128]⟩) (j k : Fin 128) :
    shapeCast ⟨2, ![128, 128]⟩ (extractStridedSlice ⟨3, ![1, 128, 128]⟩ ![l.val, 0, 0] (truncf .bf16 W hb) hs) hc (ix2 j k)
      = W (ix3 l j k) :=
  weight_entry_off W l ![l.val, 0, 0] rfl rfl rfl hb hs hc j k

/-- A layer's bias row as a kernel takes it — the `[3, 128]` stack's slice at offsets `off` that start at layer `l`
    and at `0` on the row's axis, flattened to `[128]` and given back its leading unit axis — read at `(0, k)` is the
    stack at `(l, k)`. -/
theorem bias_entry_off (b : FVec Ideal ⟨2, ![3, 128]⟩ .f32) (l : Fin 3) (off : Fin 2 → ℕ)
    (h0 : off 0 = l.val) (h1 : off 1 = 0)
    (hs : (⟨2, ![3, 128]⟩ : Shape).Slices off ⟨2, ![1, 128]⟩)
    (hc1 : (⟨2, ![1, 128]⟩ : Shape).ShapeCasts ⟨1, ![128]⟩) (hc2 : (⟨1, ![128]⟩ : Shape).ShapeCasts ⟨2, ![1, 128]⟩)
    (k : Fin 128) :
    shapeCast ⟨2, ![1, 128]⟩ (shapeCast ⟨1, ![128]⟩ (extractStridedSlice ⟨2, ![1, 128]⟩ off b hs) hc1) hc2
        (ix2 (0 : Fin 1) k) = b (ix2 l k) := by
  rw [shapeCast_a_1a_apply, shapeCast_1a_a_apply]
  refine extractStridedSlice_apply off b hs (ix2 (0 : Fin 1) k) (ix2 l k) ?_
  intro a
  match a with
  | ⟨0, _⟩ => show l.val = off 0 + 0; omega
  | ⟨1, _⟩ => show k.val = off 1 + k.val; omega

/-- The same with the offsets written `![l, 0]`. -/
theorem bias_entry (b : FVec Ideal ⟨2, ![3, 128]⟩ .f32) (l : Fin 3)
    (hs : (⟨2, ![3, 128]⟩ : Shape).Slices ![l.val, 0] ⟨2, ![1, 128]⟩)
    (hc1 : (⟨2, ![1, 128]⟩ : Shape).ShapeCasts ⟨1, ![128]⟩) (hc2 : (⟨1, ![128]⟩ : Shape).ShapeCasts ⟨2, ![1, 128]⟩)
    (k : Fin 128) :
    shapeCast ⟨2, ![1, 128]⟩ (shapeCast ⟨1, ![128]⟩ (extractStridedSlice ⟨2, ![1, 128]⟩ ![l.val, 0] b hs) hc1) hc2
        (ix2 (0 : Fin 1) k) = b (ix2 l k) :=
  bias_entry_off b l ![l.val, 0] rfl rfl hs hc1 hc2 k

/-- Layer 0's weight matrix, the offsets written as the literals `![0, 0, 0]`. -/
theorem weight_entry_0 (W : FVec Ideal ⟨3, ![3, 128, 128]⟩ .f32) (hb : FTy.bits .bf16 < FTy.bits .f32)
    (hs : (⟨3, ![3, 128, 128]⟩ : Shape).Slices ![0, 0, 0] ⟨3, ![1, 128, 128]⟩)
    (hc : (⟨3, ![1, 128, 128]⟩ : Shape).ShapeCasts ⟨2, ![128, 128]⟩) (j k : Fin 128) :
    shapeCast ⟨2, ![128, 128]⟩ (extractStridedSlice ⟨3, ![1, 128, 128]⟩ ![0, 0, 0] (truncf .bf16 W hb) hs) hc (ix2 j k)
      = W (ix3 (0 : Fin 3) j k) :=
  weight_entry_off W (0 : Fin 3) ![0, 0, 0] rfl rfl rfl hb hs hc j k

/-- Layer 0's bias row, the offsets written as the literals `![0, 0]`. -/
theorem bias_entry_0 (b : FVec Ideal ⟨2, ![3, 128]⟩ .f32)
    (hs : (⟨2, ![3, 128]⟩ : Shape).Slices ![0, 0] ⟨2, ![1, 128]⟩)
    (hc1 : (⟨2, ![1, 128]⟩ : Shape).ShapeCasts ⟨1, ![128]⟩) (hc2 : (⟨1, ![128]⟩ : Shape).ShapeCasts ⟨2, ![1, 128]⟩)
    (k : Fin 128) :
    shapeCast ⟨2, ![1, 128]⟩ (shapeCast ⟨1, ![128]⟩ (extractStridedSlice ⟨2, ![1, 128]⟩ ![0, 0] b hs) hc1) hc2
        (ix2 (0 : Fin 1) k) = b (ix2 (0 : Fin 3) k) :=
  bias_entry_off b (0 : Fin 3) ![0, 0] rfl rfl hs hc1 hc2 k

/-- Layer 1's weight matrix, the offsets written as the literals `![1, 0, 0]`. -/
theorem weight_entry_1 (W : FVec Ideal ⟨3, ![3, 128, 128]⟩ .f32) (hb : FTy.bits .bf16 < FTy.bits .f32)
    (hs : (⟨3, ![3, 128, 128]⟩ : Shape).Slices ![1, 0, 0] ⟨3, ![1, 128, 128]⟩)
    (hc : (⟨3, ![1, 128, 128]⟩ : Shape).ShapeCasts ⟨2, ![128, 128]⟩) (j k : Fin 128) :
    shapeCast ⟨2, ![128, 128]⟩ (extractStridedSlice ⟨3, ![1, 128, 128]⟩ ![1, 0, 0] (truncf .bf16 W hb) hs) hc (ix2 j k)
      = W (ix3 (1 : Fin 3) j k) :=
  weight_entry_off W (1 : Fin 3) ![1, 0, 0] rfl rfl rfl hb hs hc j k

/-- Layer 1's bias row, the offsets written as the literals `![1, 0]`. -/
theorem bias_entry_1 (b : FVec Ideal ⟨2, ![3, 128]⟩ .f32)
    (hs : (⟨2, ![3, 128]⟩ : Shape).Slices ![1, 0] ⟨2, ![1, 128]⟩)
    (hc1 : (⟨2, ![1, 128]⟩ : Shape).ShapeCasts ⟨1, ![128]⟩) (hc2 : (⟨1, ![128]⟩ : Shape).ShapeCasts ⟨2, ![1, 128]⟩)
    (k : Fin 128) :
    shapeCast ⟨2, ![1, 128]⟩ (shapeCast ⟨1, ![128]⟩ (extractStridedSlice ⟨2, ![1, 128]⟩ ![1, 0] b hs) hc1) hc2
        (ix2 (0 : Fin 1) k) = b (ix2 (1 : Fin 3) k) :=
  bias_entry_off b (1 : Fin 3) ![1, 0] rfl rfl hs hc1 hc2 k

/-- Layer 2's weight matrix, the offsets written as the literals `![2, 0, 0]`. -/
theorem weight_entry_2 (W : FVec Ideal ⟨3, ![3, 128, 128]⟩ .f32) (hb : FTy.bits .bf16 < FTy.bits .f32)
    (hs : (⟨3, ![3, 128, 128]⟩ : Shape).Slices ![2, 0, 0] ⟨3, ![1, 128, 128]⟩)
    (hc : (⟨3, ![1, 128, 128]⟩ : Shape).ShapeCasts ⟨2, ![128, 128]⟩) (j k : Fin 128) :
    shapeCast ⟨2, ![128, 128]⟩ (extractStridedSlice ⟨3, ![1, 128, 128]⟩ ![2, 0, 0] (truncf .bf16 W hb) hs) hc (ix2 j k)
      = W (ix3 (2 : Fin 3) j k) :=
  weight_entry_off W (2 : Fin 3) ![2, 0, 0] rfl rfl rfl hb hs hc j k

/-- Layer 2's bias row, the offsets written as the literals `![2, 0]`. -/
theorem bias_entry_2 (b : FVec Ideal ⟨2, ![3, 128]⟩ .f32)
    (hs : (⟨2, ![3, 128]⟩ : Shape).Slices ![2, 0] ⟨2, ![1, 128]⟩)
    (hc1 : (⟨2, ![1, 128]⟩ : Shape).ShapeCasts ⟨1, ![128]⟩) (hc2 : (⟨1, ![128]⟩ : Shape).ShapeCasts ⟨2, ![1, 128]⟩)
    (k : Fin 128) :
    shapeCast ⟨2, ![1, 128]⟩ (shapeCast ⟨1, ![128]⟩ (extractStridedSlice ⟨2, ![1, 128]⟩ ![2, 0] b hs) hc1) hc2
        (ix2 (0 : Fin 1) k) = b (ix2 (2 : Fin 3) k) :=
  bias_entry_off b (2 : Fin 3) ![2, 0] rfl rfl hs hc1 hc2 k

end Operands

section Reference
open Cert.ReferenceIdeal Cert.ReferenceIdeal.Gen Cert.ReferenceIdeal.Read

/-- A layer's weight matrix as the reference takes it — the `[3, 128, 128]` stack's slice at offsets `off` that start
    at layer `l` and at `0` on the matrix's two axes, reshaped to `[128, 128]` — read at `(j, k)` is the stack at
    `(l, j, k)`. -/
theorem refWeight_entry (W : FVec Ideal ⟨3, ![3, 128, 128]⟩ .f32) (l : Fin 3) (off : Fin 3 → ℕ)
    (h0 : off 0 = l.val) (h1 : off 1 = 0) (h2 : off 2 = 0)
    (hs : (⟨3, ![3, 128, 128]⟩ : Shape).Slices off ⟨3, ![1, 128, 128]⟩)
    (hc : (⟨3, ![1, 128, 128]⟩ : Shape).ShapeCasts ⟨2, ![128, 128]⟩) (j k : Fin 128) :
    shapeCast ⟨2, ![128, 128]⟩ (extractStridedSlice ⟨3, ![1, 128, 128]⟩ off W hs) hc (ix2 j k) = W (ix3 l j k) := by
  rw [shapeCast_1ab_ab_apply]
  refine extractStridedSlice_apply off W hs (ix3 (0 : Fin 1) j k) (ix3 l j k) ?_
  intro a
  match a with
  | ⟨0, _⟩ => show l.val = off 0 + 0; omega
  | ⟨1, _⟩ => show j.val = off 1 + j.val; omega
  | ⟨2, _⟩ => show k.val = off 2 + k.val; omega

/-- A layer's bias as the reference adds it — the `[3, 128]` stack's slice at offsets `off` that start at layer `l`,
    flattened to `[128]`, laid along a single row and then along every one of the 50000 rows — read at `(r, k)` is the
    stack at `(l, k)`. -/
theorem refBias_entry (b : FVec Ideal ⟨2, ![3, 128]⟩ .f32) (l : Fin 3) (off : Fin 2 → ℕ)
    (h0 : off 0 = l.val) (h1 : off 1 = 0)
    (hs : (⟨2, ![3, 128]⟩ : Shape).Slices off ⟨2, ![1, 128]⟩)
    (hc1 : (⟨2, ![1, 128]⟩ : Shape).ShapeCasts ⟨1, ![128]⟩)
    (hb1 : (⟨1, ![128]⟩ : Shape).BroadcastsInDim ⟨2, ![1, 128]⟩ (![1] : Fin 1 → Fin 2))
    (hb2 : (⟨2, ![1, 128]⟩ : Shape).BroadcastsInDim ⟨2, ![50000, 128]⟩ (![0, 1] : Fin 2 → Fin 2))
    (r : Fin 50000) (k : Fin 128) :
    broadcastInDim ⟨2, ![50000, 128]⟩ ![0, 1] hb2
        (broadcastInDim ⟨2, ![1, 128]⟩ ![1] hb1
          (shapeCast ⟨1, ![128]⟩ (extractStridedSlice ⟨2, ![1, 128]⟩ off b hs) hc1)) (ix2 r k)
      = b (ix2 l k) := by
  refine (broadcastInDim_apply _ hb2 _ (ix2 r k) (ix2 (0 : Fin 1) k) ?_).trans ?_
  · intro a
    match a with
    | ⟨0, _⟩ => show 0 = if (1 : ℕ) = 1 then 0 else r.val; rw [if_pos rfl]
    | ⟨1, _⟩ => show k.val = if (128 : ℕ) = 1 then 0 else k.val; rw [if_neg (by decide)]
  refine (broadcastInDim_apply _ hb1 _ (ix2 (0 : Fin 1) k) (ix1 k) ?_).trans ?_
  · intro a
    match a with
    | ⟨0, _⟩ => show k.val = if (128 : ℕ) = 1 then 0 else k.val; rw [if_neg (by decide)]
  rw [shapeCast_1a_a_apply]
  refine extractStridedSlice_apply off b hs (ix2 (0 : Fin 1) k) (ix2 l k) ?_
  intro a
  match a with
  | ⟨0, _⟩ => show l.val = off 0 + 0; omega
  | ⟨1, _⟩ => show k.val = off 1 + k.val; omega

/-- ONE LAYER OF THE REFERENCE AT AN ENTRY: the rows `a` times `W1`, plus `B1`, cut below at an array `Z` of zeros,
    times `W2`, plus `B2`, read at `(r, q)`. -/
theorem refLayer_entry (a B1 B2 Z : FVec Ideal ⟨2, ![50000, 128]⟩ .f32) (W1 W2 : FVec Ideal ⟨2, ![128, 128]⟩ .f32)
    (hZ : ∀ i, Z i = 0) (r : Fin 50000) (q : Fin 128) :
    addf (Host.dotGeneral (DotDims.plain 50000 128 128) none
            (maximumf (addf (Host.dotGeneral (DotDims.plain 50000 128 128) none a W1) B1) Z) W2) B2 (ix2 r q)
      = (∑ k : Fin 128, max ((∑ j : Fin 128, a (ix2 r j) * W1 (ix2 j k)) + B1 (ix2 r k)) 0 * W2 (ix2 k q))
          + B2 (ix2 r q) := by
  rw [addf_apply, StackMember.dotGeneral_plain_apply]
  refine congrArg (· + B2 (ix2 r q)) (Finset.sum_congr rfl (fun k _ => ?_))
  rw [maximumf_apply, addf_apply, StackMember.dotGeneral_plain_apply, hZ]

/-- The reference's first layer at `(r, q)`: the perceptron entry of the row `x0[r, ·]` plus its aggregate, under the
    first matrices and biases of the four stacks. -/
theorem ref1_entry (x0 : (⟨S50000x128, .f32⟩ : BufTy).Contents (Elt Ideal)) (x1 : (⟨S2x800000, .i32⟩ : BufTy).Contents (Elt Ideal))
    (x3 : (⟨S3x128x128, .f32⟩ : BufTy).Contents (Elt Ideal)) (x4 : (⟨S3x128, .f32⟩ : BufTy).Contents (Elt Ideal))
    (x5 : (⟨S3x128x128, .f32⟩ : BufTy).Contents (Elt Ideal)) (x6 : (⟨S3x128, .f32⟩ : BufTy).Contents (Elt Ideal))
    (r : Fin 50000) (q : Fin 128) :
    val_main_v31 (F := Ideal) x0 x1 x3 x4 x5 x6 (ix2 r q)
      = mlpEntry (fun j => x0 (ix2 r j) + val_main_v13 (F := Ideal) x0 x1 (ix2 r j))
          (fun j k => x3 (ix3 (0 : Fin 3) j k)) (fun k => x4 (ix2 (0 : Fin 3) k))
          (fun k q' => x5 (ix3 (0 : Fin 3) k q')) (fun q' => x6 (ix2 (0 : Fin 3) q')) q := by
  have hZ : ∀ i, val_main_call0_v0 (F := Ideal) i = 0 := fun i => by
    rw [val_main_call0_v0_apply, val_main_call0_cst_apply]; exact Ideal.ofBits_zero_f32
  have hW1 : ∀ j k : Fin 128, val_main_v16 (F := Ideal) x3 (ix2 j k) = x3 (ix3 (0 : Fin 3) j k) := fun j k =>
    refWeight_entry x3 0 ![0, 0, 0] rfl rfl rfl _ _ j k
  have hW2 : ∀ j k : Fin 128, val_main_v25 (F := Ideal) x5 (ix2 j k) = x5 (ix3 (0 : Fin 3) j k) := fun j k =>
    refWeight_entry x5 0 ![0, 0, 0] rfl rfl rfl _ _ j k
  have hB1 : ∀ (r : Fin 50000) (k : Fin 128), val_main_v21 (F := Ideal) x4 (ix2 r k) = x4 (ix2 (0 : Fin 3) k) := fun r k =>
    refBias_entry x4 0 ![0, 0] rfl rfl _ _ _ _ r k
  have hB2 : ∀ (r : Fin 50000) (k : Fin 128), val_main_v30 (F := Ideal) x6 (ix2 r k) = x6 (ix2 (0 : Fin 3) k) := fun r k =>
    refBias_entry x6 0 ![0, 0] rfl rfl _ _ _ _ r k
  refine (refLayer_entry (val_main_v14 (F := Ideal) x0 x1) (val_main_v21 (F := Ideal) x4) (val_main_v30 (F := Ideal) x6)
    (val_main_call0_v0 (F := Ideal)) (val_main_v16 (F := Ideal) x3) (val_main_v25 (F := Ideal) x5) hZ r q).trans ?_
  unfold mlpEntry
  simp only [hW1, hW2, hB1, hB2]
  rfl

/-- The reference's second layer at `(r, q)`: the perceptron entry of the first layer's row `r` plus its aggregate,
    under the second matrices and biases of the four stacks. -/
theorem ref2_entry (x0 : (⟨S50000x128, .f32⟩ : BufTy).Contents (Elt Ideal)) (x1 : (⟨S2x800000, .i32⟩ : BufTy).Contents (Elt Ideal))
    (x3 : (⟨S3x128x128, .f32⟩ : BufTy).Contents (Elt Ideal)) (x4 : (⟨S3x128, .f32⟩ : BufTy).Contents (Elt Ideal))
    (x5 : (⟨S3x128x128, .f32⟩ : BufTy).Contents (Elt Ideal)) (x6 : (⟨S3x128, .f32⟩ : BufTy).Contents (Elt Ideal))
    (r : Fin 50000) (q : Fin 128) :
    val_main_v59 (F := Ideal) x0 x1 x3 x4 x5 x6 (ix2 r q)
      = mlpEntry (fun j => val_main_v31 (F := Ideal) x0 x1 x3 x4 x5 x6 (ix2 r j) + val_main_v41 (F := Ideal) x0 x1 x3 x4 x5 x6 (ix2 r j))
          (fun j k => x3 (ix3 (1 : Fin 3) j k)) (fun k => x4 (ix2 (1 : Fin 3) k))
          (fun k q' => x5 (ix3 (1 : Fin 3) k q')) (fun q' => x6 (ix2 (1 : Fin 3) q')) q := by
  have hZ : ∀ i, val_main_call1_v0 (F := Ideal) i = 0 := fun i => by
    rw [val_main_call1_v0_apply, val_main_call1_cst_apply]; exact Ideal.ofBits_zero_f32
  have hW1 : ∀ j k : Fin 128, val_main_v44 (F := Ideal) x3 (ix2 j k) = x3 (ix3 (1 : Fin 3) j k) := fun j k =>
    refWeight_entry x3 1 ![1, 0, 0] rfl rfl rfl _ _ j k
  have hW2 : ∀ j k : Fin 128, val_main_v53 (F := Ideal) x5 (ix2 j k) = x5 (ix3 (1 : Fin 3) j k) := fun j k =>
    refWeight_entry x5 1 ![1, 0, 0] rfl rfl rfl _ _ j k
  have hB1 : ∀ (r : Fin 50000) (k : Fin 128), val_main_v49 (F := Ideal) x4 (ix2 r k) = x4 (ix2 (1 : Fin 3) k) := fun r k =>
    refBias_entry x4 1 ![1, 0] rfl rfl _ _ _ _ r k
  have hB2 : ∀ (r : Fin 50000) (k : Fin 128), val_main_v58 (F := Ideal) x6 (ix2 r k) = x6 (ix2 (1 : Fin 3) k) := fun r k =>
    refBias_entry x6 1 ![1, 0] rfl rfl _ _ _ _ r k
  refine (refLayer_entry (val_main_v42 (F := Ideal) x0 x1 x3 x4 x5 x6) (val_main_v49 (F := Ideal) x4) (val_main_v58 (F := Ideal) x6)
    (val_main_call1_v0 (F := Ideal)) (val_main_v44 (F := Ideal) x3) (val_main_v53 (F := Ideal) x5) hZ r q).trans ?_
  unfold mlpEntry
  simp only [hW1, hW2, hB1, hB2]
  rfl

/-- The reference's third layer at `(r, q)`: the perceptron entry of the second layer's row `r` plus its aggregate,
    under the third matrices and biases of the four stacks. -/
theorem ref3_entry (x0 : (⟨S50000x128, .f32⟩ : BufTy).Contents (Elt Ideal)) (x1 : (⟨S2x800000, .i32⟩ : BufTy).Contents (Elt Ideal))
    (x3 : (⟨S3x128x128, .f32⟩ : BufTy).Contents (Elt Ideal)) (x4 : (⟨S3x128, .f32⟩ : BufTy).Contents (Elt Ideal))
    (x5 : (⟨S3x128x128, .f32⟩ : BufTy).Contents (Elt Ideal)) (x6 : (⟨S3x128, .f32⟩ : BufTy).Contents (Elt Ideal))
    (r : Fin 50000) (q : Fin 128) :
    val_main_v87 (F := Ideal) x0 x1 x3 x4 x5 x6 (ix2 r q)
      = mlpEntry (fun j => val_main_v59 (F := Ideal) x0 x1 x3 x4 x5 x6 (ix2 r j) + val_main_v69 (F := Ideal) x0 x1 x3 x4 x5 x6 (ix2 r j))
          (fun j k => x3 (ix3 (2 : Fin 3) j k)) (fun k => x4 (ix2 (2 : Fin 3) k))
          (fun k q' => x5 (ix3 (2 : Fin 3) k q')) (fun q' => x6 (ix2 (2 : Fin 3) q')) q := by
  have hZ : ∀ i, val_main_call2_v0 (F := Ideal) i = 0 := fun i => by
    rw [val_main_call2_v0_apply, val_main_call2_cst_apply]; exact Ideal.ofBits_zero_f32
  have hW1 : ∀ j k : Fin 128, val_main_v72 (F := Ideal) x3 (ix2 j k) = x3 (ix3 (2 : Fin 3) j k) := fun j k =>
    refWeight_entry x3 2 ![2, 0, 0] rfl rfl rfl _ _ j k
  have hW2 : ∀ j k : Fin 128, val_main_v81 (F := Ideal) x5 (ix2 j k) = x5 (ix3 (2 : Fin 3) j k) := fun j k =>
    refWeight_entry x5 2 ![2, 0, 0] rfl rfl rfl _ _ j k
  have hB1 : ∀ (r : Fin 50000) (k : Fin 128), val_main_v77 (F := Ideal) x4 (ix2 r k) = x4 (ix2 (2 : Fin 3) k) := fun r k =>
    refBias_entry x4 2 ![2, 0] rfl rfl _ _ _ _ r k
  have hB2 : ∀ (r : Fin 50000) (k : Fin 128), val_main_v86 (F := Ideal) x6 (ix2 r k) = x6 (ix2 (2 : Fin 3) k) := fun r k =>
    refBias_entry x6 2 ![2, 0] rfl rfl _ _ _ _ r k
  refine (refLayer_entry (val_main_v70 (F := Ideal) x0 x1 x3 x4 x5 x6) (val_main_v77 (F := Ideal) x4) (val_main_v86 (F := Ideal) x6)
    (val_main_call2_v0 (F := Ideal)) (val_main_v72 (F := Ideal) x3) (val_main_v81 (F := Ideal) x5) hZ r q).trans ?_
  unfold mlpEntry
  simp only [hW1, hW2, hB1, hB2]
  rfl

end Reference

end Cert.LayerEntry

end
-- ==== Proof.IdealFinal0.lean ====
/-
  What pallas call 0 leaves in its output array, as ONE function of the arrays it reads.

  Tile `t` of the call reads rows [5000 t, 5000 t + 5000) of its two row-tiled operands and the whole of the four
  resident ones, and writes the same rows of the output. Entry (p, q) of what it writes is the two-matrix perceptron
  entry of row 5000 t + p: so row r, column q of the output array is the perceptron entry of row r of the operands,
  whatever tile r falls in; the ten tiles cover the fifty thousand rows.
-/
import proofs.«168674_j7438883357611_2_alg».proof.Proof.IdealRegion0
import proofs.«168674_j7438883357611_2_alg».proof.Proof.LayerEntry
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.LayerEntry

variable (V : (c : Dev nD) → (b : Ref sig .tc) → Buf (Elt Ideal) ((c : Thread nD τ).loc b))

theorem hz0 : (![0, 0] : Fin 2 → Nat) = fun _ => 0 := funext fun a => by fin_cases a <;> rfl

/-- The six arrays the call reads, as arrays of extended reals of their shapes. -/
abbrev in0_0 (c : Dev nD) : FVec Ideal S50000x128 .f32 := V c main_arg0
abbrev in0_1 (c : Dev nD) : FVec Ideal S50000x128 .f32 := V c main_v15
abbrev in0_2 (c : Dev nD) : FVec Ideal S128x128 .bf16 := V c main_v17
abbrev in0_3 (c : Dev nD) : FVec Ideal S1x128 .f32 := V c main_v24
abbrev in0_4 (c : Dev nD) : FVec Ideal S128x128 .bf16 := V c main_v21
abbrev in0_5 (c : Dev nD) : FVec Ideal S1x128 .f32 := V c main_v25

/-- Row `r`, column `q` of the output: the perceptron entry of row `r` of the two row-tiled operands. -/
def row0 (c : Dev nD) (r : Fin 50000) (q : Fin 128) : EReal :=
  mlpEntry (fun j => in0_0 V c (ix2 r j) + in0_1 V c (ix2 r j)) (fun j k => in0_2 V c (ix2 j k)) (fun k => in0_3 V c (ix2 (0 : Fin 1) k))
    (fun k q' => in0_4 V c (ix2 k q')) (fun q' => in0_5 V c (ix2 (0 : Fin 1) q')) q

/-- The output array as one function of the arrays the call reads. -/
def G0 (c : Dev nD) : S50000x128.Idx → EReal := fun i => row0 V c ⟨(i 0).val, idx2_lt0 i⟩ ⟨(i 1).val, idx2_lt1 i⟩

/-- The printed index maps over the ten tiles: the two row-tiled operands move with the output, the four resident ones stay. -/
theorem idx_facts0 : ∀ t : Fin cfg0.N, win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 ∧ win0_6.index t (0 : Fin 2) ≤ 9 :=
  (by decide +kernel : ∀ t : Fin grid0.N, _)

/-- Every row tile is some grid point's. -/
theorem idx_onto0 : ∀ (q0 : Fin 10), ∃ t : Fin cfg0.N, win0_6.index t = ![q0.val, 0] :=
  (by decide +kernel : ∀ (q0 : Fin 10), ∃ t : Fin grid0.N, win0_6.index t = ![q0.val, 0])

/-- WHAT TILE `t` WRITES BACK is block `t` of `G0`. -/
theorem flushed0_eq (c : Dev nD) (t : Fin cfg0.N) :
    (dat0 V c).flushed 6 t = ((cfg0.win 6).blk t).view.read (Elt Ideal) (G0 V c) := by
  show (cfg0.win 6).cut (grid0.coords t) ((dat0 V c).after 6 t) = _
  rw [after0_6]
  unfold out0_6
  rw [View.canon_unit_zero hz0]
  simp only [View.ld_unit_zero (S := S5000x128) hz0, View.ld_unit_zero (S := S128x128) hz0, View.ld_unit_zero (S := S1x128) hz0]
  obtain ⟨e00, e01, e10, e11, e20, e21, e30, e31, e40, e41, e50, e51, e61, e6b⟩ := idx_facts0 t
  funext j
  obtain ⟨p, q, rfl⟩ : ∃ (p : Fin 5000) (q : Fin 128), j = ix2 p q := ⟨j 0, j 1, eq_ix2 j⟩
  have hp : p.val < 5000 := p.isLt
  have hq : q.val < 128 := q.isLt
  let r : Fin 50000 := ⟨win0_6.index t (0 : Fin 2) * 5000 + p.val, by omega⟩
  refine (pay0_apply (iblk0 V c 0 t) (iblk0 V c 1 t) (iblk0 V c 2 t) (iblk0 V c 3 t) (iblk0 V c 4 t) (iblk0 V c 5 t) p q).trans ?_
  have b0 : ∀ l : Fin 128, iblk0 V c 0 t (ix2 p l) = in0_0 V c (ix2 r l) := fun l => by
    have hl : l.val < 128 := l.isLt
    show V c main_arg0 (((cfg0.win 0).blk t).view.emb (ix2 p l)) = _
    refine congrArg (V c main_arg0) (funext fun a => Fin.ext ?_)
    match a with
    | ⟨0, _⟩ => show win0_0.index t (0 : Fin 2) * 5000 + 1 * p.val = win0_6.index t (0 : Fin 2) * 5000 + p.val; omega
    | ⟨1, _⟩ => show win0_0.index t (1 : Fin 2) * 128 + 1 * l.val = l.val; omega
  have b1 : ∀ l : Fin 128, iblk0 V c 1 t (ix2 p l) = in0_1 V c (ix2 r l) := fun l => by
    have hl : l.val < 128 := l.isLt
    show V c main_v15 (((cfg0.win 1).blk t).view.emb (ix2 p l)) = _
    refine congrArg (V c main_v15) (funext fun a => Fin.ext ?_)
    match a with
    | ⟨0, _⟩ => show win0_1.index t (0 : Fin 2) * 5000 + 1 * p.val = win0_6.index t (0 : Fin 2) * 5000 + p.val; omega
    | ⟨1, _⟩ => show win0_1.index t (1 : Fin 2) * 128 + 1 * l.val = l.val; omega
  have b2 : ∀ l k : Fin 128, iblk0 V c 2 t (ix2 l k) = in0_2 V c (ix2 l k) := fun l k => by
    show V c main_v17 (((cfg0.win 2).blk t).view.emb (ix2 l k)) = _
    refine congrArg (V c main_v17) (funext fun a => Fin.ext ?_)
    match a with
    | ⟨0, _⟩ => show win0_2.index t (0 : Fin 2) * 128 + 1 * l.val = l.val; omega
    | ⟨1, _⟩ => show win0_2.index t (1 : Fin 2) * 128 + 1 * k.val = k.val; omega
  have b3 : ∀ k : Fin 128, iblk0 V c 3 t (ix2 (0 : Fin 1) k) = in0_3 V c (ix2 (0 : Fin 1) k) := fun k => by
    show V c main_v24 (((cfg0.win 3).blk t).view.emb (ix2 (0 : Fin 1) k)) = _
    refine congrArg (V c main_v24) (funext fun a => Fin.ext ?_)
    match a with
    | ⟨0, _⟩ => show win0_3.index t (0 : Fin 2) * 1 + 1 * 0 = 0; omega
    | ⟨1, _⟩ => show win0_3.index t (1 : Fin 2) * 128 + 1 * k.val = k.val; omega
  have b4 : ∀ l k : Fin 128, iblk0 V c 4 t (ix2 l k) = in0_4 V c (ix2 l k) := fun l k => by
    show V c main_v21 (((cfg0.win 4).blk t).view.emb (ix2 l k)) = _
    refine congrArg (V c main_v21) (funext fun a => Fin.ext ?_)
    match a with
    | ⟨0, _⟩ => show win0_4.index t (0 : Fin 2) * 128 + 1 * l.val = l.val; omega
    | ⟨1, _⟩ => show win0_4.index t (1 : Fin 2) * 128 + 1 * k.val = k.val; omega
  have b5 : ∀ k : Fin 128, iblk0 V c 5 t (ix2 (0 : Fin 1) k) = in0_5 V c (ix2 (0 : Fin 1) k) := fun k => by
    show V c main_v25 (((cfg0.win 5).blk t).view.emb (ix2 (0 : Fin 1) k)) = _
    refine congrArg (V c main_v25) (funext fun a => Fin.ext ?_)
    match a with
    | ⟨0, _⟩ => show win0_5.index t (0 : Fin 2) * 1 + 1 * 0 = 0; omega
    | ⟨1, _⟩ => show win0_5.index t (1 : Fin 2) * 128 + 1 * k.val = k.val; omega
  simp only [b0, b1, b2, b3, b4, b5]
  show row0 V c r q = G0 V c (((cfg0.win 6).blk t).view.emb (ix2 p q))
  unfold G0
  have hr : (⟨((((cfg0.win 6).blk t).view.emb (ix2 p q)) 0).val, idx2_lt0 _⟩ : Fin 50000) = r :=
    Fin.ext (show win0_6.index t (0 : Fin 2) * 5000 + 1 * p.val = win0_6.index t (0 : Fin 2) * 5000 + p.val by omega)
  have hq' : (⟨((((cfg0.win 6).blk t).view.emb (ix2 p q)) 1).val, idx2_lt1 _⟩ : Fin 128) = q :=
    Fin.ext (show win0_6.index t (1 : Fin 2) * 128 + 1 * q.val = q.val by omega)
  rw [hr, hq']

/-- An index is in tile `t`'s block iff each coordinate is in the block's range on its axis. -/
theorem mem_blk0 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v26).slice (win0_6.rect t)).set ↔ _
  rw [View.set_slice_whole, Rect.mem_set_unit]
  exact Iff.rfl

/-- The ten tiles cover the array. -/
theorem cover0 (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ := idx_onto0 ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_blk0]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- THE OUTPUT ARRAY after the call is `G0` of the arrays the call reads. -/
theorem final0 (c : Dev nD) : (dat0 V c).arrAt 6 cfg0.N = G0 V c :=
  (dat0 V c).arrAt_eq_of_cover 6 (G0 V c) (fun t _ => flushed0_eq V c t) (cover0)

/-- Read at row `r`, column `q`. -/
theorem final0_apply (c : Dev nD) (r : Fin 50000) (q : Fin 128) : (dat0 V c).arrAt 6 cfg0.N (ix2 r q) = row0 V c r q := by
  rw [final0]; rfl

end Cert.KernelIdeal.Hand

end
-- ==== Proof.IdealFinal1.lean ====
/-
  What pallas call 1 leaves in its output array, as ONE function of the arrays it reads.

  Tile `t` of the call reads rows [5000 t, 5000 t + 5000) of its two row-tiled operands and the whole of the four
  resident ones, and writes the same rows of the output. Entry (p, q) of what it writes is the two-matrix perceptron
  entry of row 5000 t + p: so row r, column q of the output array is the perceptron entry of row r of the operands,
  whatever tile r falls in; the ten tiles cover the fifty thousand rows.
-/
import proofs.«168674_j7438883357611_2_alg».proof.Proof.IdealRegion1
import proofs.«168674_j7438883357611_2_alg».proof.Proof.LayerEntry
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.LayerEntry

variable (V : (c : Dev nD) → (b : Ref sig .tc) → Buf (Elt Ideal) ((c : Thread nD τ).loc b))

theorem hz1 : (![0, 0] : Fin 2 → Nat) = fun _ => 0 := funext fun a => by fin_cases a <;> rfl

/-- The six arrays the call reads, as arrays of extended reals of their shapes. -/
abbrev in1_0 (c : Dev nD) : FVec Ideal S50000x128 .f32 := V c main_v26
abbrev in1_1 (c : Dev nD) : FVec Ideal S50000x128 .f32 := V c main_v36
abbrev in1_2 (c : Dev nD) : FVec Ideal S128x128 .bf16 := V c main_v38
abbrev in1_3 (c : Dev nD) : FVec Ideal S1x128 .f32 := V c main_v45
abbrev in1_4 (c : Dev nD) : FVec Ideal S128x128 .bf16 := V c main_v42
abbrev in1_5 (c : Dev nD) : FVec Ideal S1x128 .f32 := V c main_v46

/-- Row `r`, column `q` of the output: the perceptron entry of row `r` of the two row-tiled operands. -/
def row1 (c : Dev nD) (r : Fin 50000) (q : Fin 128) : EReal :=
  mlpEntry (fun j => in1_0 V c (ix2 r j) + in1_1 V c (ix2 r j)) (fun j k => in1_2 V c (ix2 j k)) (fun k => in1_3 V c (ix2 (0 : Fin 1) k))
    (fun k q' => in1_4 V c (ix2 k q')) (fun q' => in1_5 V c (ix2 (0 : Fin 1) q')) q

/-- The output array as one function of the arrays the call reads. -/
def G1 (c : Dev nD) : S50000x128.Idx → EReal := fun i => row1 V c ⟨(i 0).val, idx2_lt0 i⟩ ⟨(i 1).val, idx2_lt1 i⟩

/-- The printed index maps over the ten tiles: the two row-tiled operands move with the output, the four resident ones stay. -/
theorem idx_facts1 : ∀ t : Fin cfg1.N, win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (1 : Fin 2) = 0 ∧ win1_6.index t (0 : Fin 2) ≤ 9 :=
  (by decide +kernel : ∀ t : Fin grid1.N, _)

/-- Every row tile is some grid point's. -/
theorem idx_onto1 : ∀ (q0 : Fin 10), ∃ t : Fin cfg1.N, win1_6.index t = ![q0.val, 0] :=
  (by decide +kernel : ∀ (q0 : Fin 10), ∃ t : Fin grid1.N, win1_6.index t = ![q0.val, 0])

/-- WHAT TILE `t` WRITES BACK is block `t` of `G1`. -/
theorem flushed1_eq (c : Dev nD) (t : Fin cfg1.N) :
    (dat1 V c).flushed 6 t = ((cfg1.win 6).blk t).view.read (Elt Ideal) (G1 V c) := by
  show (cfg1.win 6).cut (grid1.coords t) ((dat1 V c).after 6 t) = _
  rw [after1_6]
  unfold out1_6
  rw [View.canon_unit_zero hz1]
  simp only [View.ld_unit_zero (S := S5000x128) hz1, View.ld_unit_zero (S := S128x128) hz1, View.ld_unit_zero (S := S1x128) hz1]
  obtain ⟨e00, e01, e10, e11, e20, e21, e30, e31, e40, e41, e50, e51, e61, e6b⟩ := idx_facts1 t
  funext j
  obtain ⟨p, q, rfl⟩ : ∃ (p : Fin 5000) (q : Fin 128), j = ix2 p q := ⟨j 0, j 1, eq_ix2 j⟩
  have hp : p.val < 5000 := p.isLt
  have hq : q.val < 128 := q.isLt
  let r : Fin 50000 := ⟨win1_6.index t (0 : Fin 2) * 5000 + p.val, by omega⟩
  refine (pay1_apply (iblk1 V c 0 t) (iblk1 V c 1 t) (iblk1 V c 2 t) (iblk1 V c 3 t) (iblk1 V c 4 t) (iblk1 V c 5 t) p q).trans ?_
  have b0 : ∀ l : Fin 128, iblk1 V c 0 t (ix2 p l) = in1_0 V c (ix2 r l) := fun l => by
    have hl : l.val < 128 := l.isLt
    show V c main_v26 (((cfg1.win 0).blk t).view.emb (ix2 p l)) = _
    refine congrArg (V c main_v26) (funext fun a => Fin.ext ?_)
    match a with
    | ⟨0, _⟩ => show win1_0.index t (0 : Fin 2) * 5000 + 1 * p.val = win1_6.index t (0 : Fin 2) * 5000 + p.val; omega
    | ⟨1, _⟩ => show win1_0.index t (1 : Fin 2) * 128 + 1 * l.val = l.val; omega
  have b1 : ∀ l : Fin 128, iblk1 V c 1 t (ix2 p l) = in1_1 V c (ix2 r l) := fun l => by
    have hl : l.val < 128 := l.isLt
    show V c main_v36 (((cfg1.win 1).blk t).view.emb (ix2 p l)) = _
    refine congrArg (V c main_v36) (funext fun a => Fin.ext ?_)
    match a with
    | ⟨0, _⟩ => show win1_1.index t (0 : Fin 2) * 5000 + 1 * p.val = win1_6.index t (0 : Fin 2) * 5000 + p.val; omega
    | ⟨1, _⟩ => show win1_1.index t (1 : Fin 2) * 128 + 1 * l.val = l.val; omega
  have b2 : ∀ l k : Fin 128, iblk1 V c 2 t (ix2 l k) = in1_2 V c (ix2 l k) := fun l k => by
    show V c main_v38 (((cfg1.win 2).blk t).view.emb (ix2 l k)) = _
    refine congrArg (V c main_v38) (funext fun a => Fin.ext ?_)
    match a with
    | ⟨0, _⟩ => show win1_2.index t (0 : Fin 2) * 128 + 1 * l.val = l.val; omega
    | ⟨1, _⟩ => show win1_2.index t (1 : Fin 2) * 128 + 1 * k.val = k.val; omega
  have b3 : ∀ k : Fin 128, iblk1 V c 3 t (ix2 (0 : Fin 1) k) = in1_3 V c (ix2 (0 : Fin 1) k) := fun k => by
    show V c main_v45 (((cfg1.win 3).blk t).view.emb (ix2 (0 : Fin 1) k)) = _
    refine congrArg (V c main_v45) (funext fun a => Fin.ext ?_)
    match a with
    | ⟨0, _⟩ => show win1_3.index t (0 : Fin 2) * 1 + 1 * 0 = 0; omega
    | ⟨1, _⟩ => show win1_3.index t (1 : Fin 2) * 128 + 1 * k.val = k.val; omega
  have b4 : ∀ l k : Fin 128, iblk1 V c 4 t (ix2 l k) = in1_4 V c (ix2 l k) := fun l k => by
    show V c main_v42 (((cfg1.win 4).blk t).view.emb (ix2 l k)) = _
    refine congrArg (V c main_v42) (funext fun a => Fin.ext ?_)
    match a with
    | ⟨0, _⟩ => show win1_4.index t (0 : Fin 2) * 128 + 1 * l.val = l.val; omega
    | ⟨1, _⟩ => show win1_4.index t (1 : Fin 2) * 128 + 1 * k.val = k.val; omega
  have b5 : ∀ k : Fin 128, iblk1 V c 5 t (ix2 (0 : Fin 1) k) = in1_5 V c (ix2 (0 : Fin 1) k) := fun k => by
    show V c main_v46 (((cfg1.win 5).blk t).view.emb (ix2 (0 : Fin 1) k)) = _
    refine congrArg (V c main_v46) (funext fun a => Fin.ext ?_)
    match a with
    | ⟨0, _⟩ => show win1_5.index t (0 : Fin 2) * 1 + 1 * 0 = 0; omega
    | ⟨1, _⟩ => show win1_5.index t (1 : Fin 2) * 128 + 1 * k.val = k.val; omega
  simp only [b0, b1, b2, b3, b4, b5]
  show row1 V c r q = G1 V c (((cfg1.win 6).blk t).view.emb (ix2 p q))
  unfold G1
  have hr : (⟨((((cfg1.win 6).blk t).view.emb (ix2 p q)) 0).val, idx2_lt0 _⟩ : Fin 50000) = r :=
    Fin.ext (show win1_6.index t (0 : Fin 2) * 5000 + 1 * p.val = win1_6.index t (0 : Fin 2) * 5000 + p.val by omega)
  have hq' : (⟨((((cfg1.win 6).blk t).view.emb (ix2 p q)) 1).val, idx2_lt1 _⟩ : Fin 128) = q :=
    Fin.ext (show win1_6.index t (1 : Fin 2) * 128 + 1 * q.val = q.val by omega)
  rw [hr, hq']

/-- An index is in tile `t`'s block iff each coordinate is in the block's range on its axis. -/
theorem mem_blk1 (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v47).slice (win1_6.rect t)).set ↔ _
  rw [View.set_slice_whole, Rect.mem_set_unit]
  exact Iff.rfl

/-- The ten tiles cover the array. -/
theorem cover1 (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ := idx_onto1 ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_blk1]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- THE OUTPUT ARRAY after the call is `G1` of the arrays the call reads. -/
theorem final1 (c : Dev nD) : (dat1 V c).arrAt 6 cfg1.N = G1 V c :=
  (dat1 V c).arrAt_eq_of_cover 6 (G1 V c) (fun t _ => flushed1_eq V c t) (cover1)

/-- Read at row `r`, column `q`. -/
theorem final1_apply (c : Dev nD) (r : Fin 50000) (q : Fin 128) : (dat1 V c).arrAt 6 cfg1.N (ix2 r q) = row1 V c r q := by
  rw [final1]; rfl

end Cert.KernelIdeal.Hand

end
-- ==== Proof.IdealFinal2.lean ====
/-
  What pallas call 2 leaves in its output array, as ONE function of the arrays it reads.

  Tile `t` of the call reads rows [5000 t, 5000 t + 5000) of its two row-tiled operands and the whole of the four
  resident ones, and writes the same rows of the output. Entry (p, q) of what it writes is the two-matrix perceptron
  entry of row 5000 t + p: so row r, column q of the output array is the perceptron entry of row r of the operands,
  whatever tile r falls in; the ten tiles cover the fifty thousand rows.
-/
import proofs.«168674_j7438883357611_2_alg».proof.Proof.IdealRegion2
import proofs.«168674_j7438883357611_2_alg».proof.Proof.LayerEntry
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.LayerEntry

variable (V : (c : Dev nD) → (b : Ref sig .tc) → Buf (Elt Ideal) ((c : Thread nD τ).loc b))

theorem hz2 : (![0, 0] : Fin 2 → Nat) = fun _ => 0 := funext fun a => by fin_cases a <;> rfl

/-- The six arrays the call reads, as arrays of extended reals of their shapes. -/
abbrev in2_0 (c : Dev nD) : FVec Ideal S50000x128 .f32 := V c main_v47
abbrev in2_1 (c : Dev nD) : FVec Ideal S50000x128 .f32 := V c main_v57
abbrev in2_2 (c : Dev nD) : FVec Ideal S128x128 .bf16 := V c main_v59
abbrev in2_3 (c : Dev nD) : FVec Ideal S1x128 .f32 := V c main_v66
abbrev in2_4 (c : Dev nD) : FVec Ideal S128x128 .bf16 := V c main_v63
abbrev in2_5 (c : Dev nD) : FVec Ideal S1x128 .f32 := V c main_v67

/-- Row `r`, column `q` of the output: the perceptron entry of row `r` of the two row-tiled operands. -/
def row2 (c : Dev nD) (r : Fin 50000) (q : Fin 128) : EReal :=
  mlpEntry (fun j => in2_0 V c (ix2 r j) + in2_1 V c (ix2 r j)) (fun j k => in2_2 V c (ix2 j k)) (fun k => in2_3 V c (ix2 (0 : Fin 1) k))
    (fun k q' => in2_4 V c (ix2 k q')) (fun q' => in2_5 V c (ix2 (0 : Fin 1) q')) q

/-- The output array as one function of the arrays the call reads. -/
def G2 (c : Dev nD) : S50000x128.Idx → EReal := fun i => row2 V c ⟨(i 0).val, idx2_lt0 i⟩ ⟨(i 1).val, idx2_lt1 i⟩

/-- The printed index maps over the ten tiles: the two row-tiled operands move with the output, the four resident ones stay. -/
theorem idx_facts2 : ∀ t : Fin cfg2.N, win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (1 : Fin 2) = 0 ∧ win2_6.index t (0 : Fin 2) ≤ 9 :=
  (by decide +kernel : ∀ t : Fin grid2.N, _)

/-- Every row tile is some grid point's. -/
theorem idx_onto2 : ∀ (q0 : Fin 10), ∃ t : Fin cfg2.N, win2_6.index t = ![q0.val, 0] :=
  (by decide +kernel : ∀ (q0 : Fin 10), ∃ t : Fin grid2.N, win2_6.index t = ![q0.val, 0])

/-- WHAT TILE `t` WRITES BACK is block `t` of `G2`. -/
theorem flushed2_eq (c : Dev nD) (t : Fin cfg2.N) :
    (dat2 V c).flushed 6 t = ((cfg2.win 6).blk t).view.read (Elt Ideal) (G2 V c) := by
  show (cfg2.win 6).cut (grid2.coords t) ((dat2 V c).after 6 t) = _
  rw [after2_6]
  unfold out2_6
  rw [View.canon_unit_zero hz2]
  simp only [View.ld_unit_zero (S := S5000x128) hz2, View.ld_unit_zero (S := S128x128) hz2, View.ld_unit_zero (S := S1x128) hz2]
  obtain ⟨e00, e01, e10, e11, e20, e21, e30, e31, e40, e41, e50, e51, e61, e6b⟩ := idx_facts2 t
  funext j
  obtain ⟨p, q, rfl⟩ : ∃ (p : Fin 5000) (q : Fin 128), j = ix2 p q := ⟨j 0, j 1, eq_ix2 j⟩
  have hp : p.val < 5000 := p.isLt
  have hq : q.val < 128 := q.isLt
  let r : Fin 50000 := ⟨win2_6.index t (0 : Fin 2) * 5000 + p.val, by omega⟩
  refine (pay2_apply (iblk2 V c 0 t) (iblk2 V c 1 t) (iblk2 V c 2 t) (iblk2 V c 3 t) (iblk2 V c 4 t) (iblk2 V c 5 t) p q).trans ?_
  have b0 : ∀ l : Fin 128, iblk2 V c 0 t (ix2 p l) = in2_0 V c (ix2 r l) := fun l => by
    have hl : l.val < 128 := l.isLt
    show V c main_v47 (((cfg2.win 0).blk t).view.emb (ix2 p l)) = _
    refine congrArg (V c main_v47) (funext fun a => Fin.ext ?_)
    match a with
    | ⟨0, _⟩ => show win2_0.index t (0 : Fin 2) * 5000 + 1 * p.val = win2_6.index t (0 : Fin 2) * 5000 + p.val; omega
    | ⟨1, _⟩ => show win2_0.index t (1 : Fin 2) * 128 + 1 * l.val = l.val; omega
  have b1 : ∀ l : Fin 128, iblk2 V c 1 t (ix2 p l) = in2_1 V c (ix2 r l) := fun l => by
    have hl : l.val < 128 := l.isLt
    show V c main_v57 (((cfg2.win 1).blk t).view.emb (ix2 p l)) = _
    refine congrArg (V c main_v57) (funext fun a => Fin.ext ?_)
    match a with
    | ⟨0, _⟩ => show win2_1.index t (0 : Fin 2) * 5000 + 1 * p.val = win2_6.index t (0 : Fin 2) * 5000 + p.val; omega
    | ⟨1, _⟩ => show win2_1.index t (1 : Fin 2) * 128 + 1 * l.val = l.val; omega
  have b2 : ∀ l k : Fin 128, iblk2 V c 2 t (ix2 l k) = in2_2 V c (ix2 l k) := fun l k => by
    show V c main_v59 (((cfg2.win 2).blk t).view.emb (ix2 l k)) = _
    refine congrArg (V c main_v59) (funext fun a => Fin.ext ?_)
    match a with
    | ⟨0, _⟩ => show win2_2.index t (0 : Fin 2) * 128 + 1 * l.val = l.val; omega
    | ⟨1, _⟩ => show win2_2.index t (1 : Fin 2) * 128 + 1 * k.val = k.val; omega
  have b3 : ∀ k : Fin 128, iblk2 V c 3 t (ix2 (0 : Fin 1) k) = in2_3 V c (ix2 (0 : Fin 1) k) := fun k => by
    show V c main_v66 (((cfg2.win 3).blk t).view.emb (ix2 (0 : Fin 1) k)) = _
    refine congrArg (V c main_v66) (funext fun a => Fin.ext ?_)
    match a with
    | ⟨0, _⟩ => show win2_3.index t (0 : Fin 2) * 1 + 1 * 0 = 0; omega
    | ⟨1, _⟩ => show win2_3.index t (1 : Fin 2) * 128 + 1 * k.val = k.val; omega
  have b4 : ∀ l k : Fin 128, iblk2 V c 4 t (ix2 l k) = in2_4 V c (ix2 l k) := fun l k => by
    show V c main_v63 (((cfg2.win 4).blk t).view.emb (ix2 l k)) = _
    refine congrArg (V c main_v63) (funext fun a => Fin.ext ?_)
    match a with
    | ⟨0, _⟩ => show win2_4.index t (0 : Fin 2) * 128 + 1 * l.val = l.val; omega
    | ⟨1, _⟩ => show win2_4.index t (1 : Fin 2) * 128 + 1 * k.val = k.val; omega
  have b5 : ∀ k : Fin 128, iblk2 V c 5 t (ix2 (0 : Fin 1) k) = in2_5 V c (ix2 (0 : Fin 1) k) := fun k => by
    show V c main_v67 (((cfg2.win 5).blk t).view.emb (ix2 (0 : Fin 1) k)) = _
    refine congrArg (V c main_v67) (funext fun a => Fin.ext ?_)
    match a with
    | ⟨0, _⟩ => show win2_5.index t (0 : Fin 2) * 1 + 1 * 0 = 0; omega
    | ⟨1, _⟩ => show win2_5.index t (1 : Fin 2) * 128 + 1 * k.val = k.val; omega
  simp only [b0, b1, b2, b3, b4, b5]
  show row2 V c r q = G2 V c (((cfg2.win 6).blk t).view.emb (ix2 p q))
  unfold G2
  have hr : (⟨((((cfg2.win 6).blk t).view.emb (ix2 p q)) 0).val, idx2_lt0 _⟩ : Fin 50000) = r :=
    Fin.ext (show win2_6.index t (0 : Fin 2) * 5000 + 1 * p.val = win2_6.index t (0 : Fin 2) * 5000 + p.val by omega)
  have hq' : (⟨((((cfg2.win 6).blk t).view.emb (ix2 p q)) 1).val, idx2_lt1 _⟩ : Fin 128) = q :=
    Fin.ext (show win2_6.index t (1 : Fin 2) * 128 + 1 * q.val = q.val by omega)
  rw [hr, hq']

/-- An index is in tile `t`'s block iff each coordinate is in the block's range on its axis. -/
theorem mem_blk2 (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v68).slice (win2_6.rect t)).set ↔ _
  rw [View.set_slice_whole, Rect.mem_set_unit]
  exact Iff.rfl

/-- The ten tiles cover the array. -/
theorem cover2 (i : S50000x128.Idx) : ∃ t : Fin cfg2.N, (cfg2.win 6).flush t = true ∧ i ∈ ((cfg2.win 6).blk t).view.set := by
  have hi0 : (i 0).val < 50000 := (i 0).isLt
  have hi1 : (i 1).val < 128 := (i 1).isLt
  obtain ⟨t, ht⟩ := idx_onto2 ⟨(i 0).val / 5000, by omega⟩
  have q0 : win2_6.index t (0 : Fin 2) = (i 0).val / 5000 := congrFun ht 0
  have q1 : win2_6.index t (1 : Fin 2) = 0 := congrFun ht 1
  refine ⟨t, flush2_6 t, ?_⟩
  rw [mem_blk2]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 128 ≤ (i 1).val ∧ (i 1).val < win2_6.index t (1 : Fin 2) * 128 + 128; omega

/-- THE OUTPUT ARRAY after the call is `G2` of the arrays the call reads. -/
theorem final2 (c : Dev nD) : (dat2 V c).arrAt 6 cfg2.N = G2 V c :=
  (dat2 V c).arrAt_eq_of_cover 6 (G2 V c) (fun t _ => flushed2_eq V c t) (cover2)

/-- Read at row `r`, column `q`. -/
theorem final2_apply (c : Dev nD) (r : Fin 50000) (q : Fin 128) : (dat2 V c).arrAt 6 cfg2.N (ix2 r q) = row2 V c r q := by
  rw [final2]; rfl

end Cert.KernelIdeal.Hand

end
-- ==== Proof.LibSegPool.lean ====
/-
  The host's float scatter-add that sums the rows of an [N, C] array into the rows of an [S, C] array named by an
  [N, 1] array of row numbers (a segment sum), read at an index at the ideal instance, and the fact that four such
  sums laid side by side are the sum of the four arrays laid side by side.
-/
import Idealize.ShloMosaic.Lib.ValueIdx
import Idealize.ShloMosaic.PureOps.Ideal
import Idealize.ShloMosaic.Lib.Pipeline.Value

noncomputable section

open scoped BigOperators

namespace Cert.LibSegPool

open Idealize.ShloMosaic Idealize.ShloMosaic.ValueIdx

/-- The dimension numbers of a segment sum: operand `[S, C]`, scatter indices `[N, 1]`, updates `[N, C]`; the
    updates' axis 1 is the window axis, the operand's axis 0 is inserted and is the one the index names, the index
    vector lies on axis 1 of the scatter indices. Their conditions `wf` are decided on literal shapes. -/
abbrev poolDims (S N C : ℕ) (wf : ScatterDims.WF ⟨2, ![S, C]⟩ ⟨2, ![N, 1]⟩ ⟨2, ![N, C]⟩ [1] [0] [0] 1) :
    ScatterDims ⟨2, ![S, C]⟩ ⟨2, ![N, 1]⟩ ⟨2, ![N, C]⟩ where
  updateWindowDims := [1]
  insertedWindowDims := [0]
  scatterDimsToOperandDims := [0]
  indexVectorDim := 1
  wf := wf

section
variable {S N C w : ℕ} (wf : ScatterDims.WF ⟨2, ![S, C]⟩ ⟨2, ![N, 1]⟩ ⟨2, ![N, C]⟩ [1] [0] [0] 1)

/-- On the operand's row axis an update's window starts at its row number `idx[n, 0]`, read as a signed integer. -/
theorem start0 (idx : IVec ⟨2, ![N, 1]⟩ w) (n : Fin N) (g : Fin C) :
    (poolDims S N C wf).start (ix2 n g) idx 0 = (idx (ix2 n (0 : Fin 1))).toInt := by
  unfold ScatterDims.start
  rw [dif_pos (show (0 : Fin 2) ∈ (poolDims S N C wf).scatterDimsToOperandDims from List.mem_singleton.mpr rfl)]
  congr 2
  funext b
  refine Fin.ext ?_
  match b with
  | ⟨0, _⟩ => rfl
  | ⟨1, _⟩ => rfl

/-- On the operand's column axis the window starts at `0`: the index names the row axis only. -/
theorem start1 (idx : IVec ⟨2, ![N, 1]⟩ w) (n : Fin N) (g : Fin C) :
    (poolDims S N C wf).start (ix2 n g) idx 1 = 0 := by
  unfold ScatterDims.start
  rw [dif_neg (show ¬ (1 : Fin 2) ∈ (poolDims S N C wf).scatterDimsToOperandDims from
    (show (1 : Fin 2) ∉ [(0 : Fin 2)] by decide))]

/-- The row axis is inserted: the window coordinate there is `0`. -/
theorem window0 (n : Fin N) (g : Fin C) : (poolDims S N C wf).window (ix2 n g) 0 = 0 := by
  unfold ScatterDims.window
  rw [dif_neg (show ¬ (0 : Fin 2) ∈ (poolDims S N C wf).sKept from
    (show (0 : Fin 2) ∉ (List.finRange 2).filter (fun a => a ∉ [(0 : Fin 2)]) by decide))]

/-- On the column axis the window coordinate is the update's column. -/
theorem window1 (n : Fin N) (g : Fin C) : (poolDims S N C wf).window (ix2 n g) 1 = g.val := by
  unfold ScatterDims.window
  rw [dif_pos (show (1 : Fin 2) ∈ (poolDims S N C wf).sKept from
    (show (1 : Fin 2) ∈ (List.finRange 2).filter (fun a => a ∉ [(0 : Fin 2)]) by decide))]
  rfl

/-- WHERE AN UPDATE LANDS: update element `(n, g)` lands on operand element `(s, f)` exactly when the row number
    `idx[n, 0]`, read as a signed integer and not clamped, is `s`, and the column is the same, `g = f`. A row number
    outside `[0, S)` lands nowhere: the update is dropped. -/
theorem resultIdx_pool (idx : IVec ⟨2, ![N, 1]⟩ w) (n : Fin N) (g : Fin C) (s : Fin S) (f : Fin C) :
    (poolDims S N C wf).resultIdx? (ix2 n g) idx = some (ix2 s f) ↔
      ((idx (ix2 n (0 : Fin 1))).toInt = (s.val : ℤ) ∧ g = f) := by
  have e0 : (poolDims S N C wf).start (ix2 n g) idx 0 + ((poolDims S N C wf).window (ix2 n g) 0 : ℕ)
      = (idx (ix2 n (0 : Fin 1))).toInt := by
    rw [start0, window0]; simp
  have e1 : (poolDims S N C wf).start (ix2 n g) idx 1 + ((poolDims S N C wf).window (ix2 n g) 1 : ℕ) = (g.val : ℤ) := by
    rw [start1, window1]; simp
  unfold ScatterDims.resultIdx?
  constructor
  · intro h
    split at h
    · next hall =>
      have h' := Option.some.inj h
      have h0 : ((poolDims S N C wf).start (ix2 n g) idx 0 + ((poolDims S N C wf).window (ix2 n g) 0 : ℕ)).toNat = s.val :=
        congrArg (fun i => (i 0).val) h'
      have h1 : ((poolDims S N C wf).start (ix2 n g) idx 1 + ((poolDims S N C wf).window (ix2 n g) 1 : ℕ)).toNat = f.val :=
        congrArg (fun i => (i 1).val) h'
      have p0 := (hall 0).1
      rw [e0] at h0 p0
      rw [e1] at h1
      refine ⟨by omega, Fin.ext (by omega)⟩
    · exact absurd h (by simp)
  · rintro ⟨hs, rfl⟩
    have hall : ∀ a : Fin 2, 0 ≤ (poolDims S N C wf).start (ix2 n g) idx a + ((poolDims S N C wf).window (ix2 n g) a : ℕ) ∧
        (poolDims S N C wf).start (ix2 n g) idx a + ((poolDims S N C wf).window (ix2 n g) a : ℕ)
          < ((⟨2, ![S, C]⟩ : Shape).size a : ℕ) := by
      intro a
      match a with
      | ⟨0, _⟩ =>
        have := s.isLt
        show 0 ≤ (poolDims S N C wf).start (ix2 n g) idx 0 + ((poolDims S N C wf).window (ix2 n g) 0 : ℕ) ∧
          (poolDims S N C wf).start (ix2 n g) idx 0 + ((poolDims S N C wf).window (ix2 n g) 0 : ℕ) < (S : ℤ)
        rw [e0, hs]; omega
      | ⟨1, _⟩ =>
        have := g.isLt
        show 0 ≤ (poolDims S N C wf).start (ix2 n g) idx 1 + ((poolDims S N C wf).window (ix2 n g) 1 : ℕ) ∧
          (poolDims S N C wf).start (ix2 n g) idx 1 + ((poolDims S N C wf).window (ix2 n g) 1 : ℕ) < (C : ℤ)
        rw [e1]; omega
    rw [dif_pos hall]
    congr 1
    funext a
    refine Fin.ext ?_
    match a with
    | ⟨0, _⟩ =>
      show ((poolDims S N C wf).start (ix2 n g) idx 0 + ((poolDims S N C wf).window (ix2 n g) 0 : ℕ)).toNat = s.val
      rw [e0, hs]; omega
    | ⟨1, _⟩ =>
      show ((poolDims S N C wf).start (ix2 n g) idx 1 + ((poolDims S N C wf).window (ix2 n g) 1 : ℕ)).toNat = g.val
      rw [e1]; omega

/-- THE SEGMENT SUM READ AT `(s, f)`: the operand there plus the sum, over the update rows `n` whose row number
    `idx[n, 0]` (signed, not clamped) is `s`, of the update's element in column `f`. -/
theorem scatterAdd_pool_apply (x : (⟨2, ![S, C]⟩ : Shape).Idx → EReal) (idx : IVec ⟨2, ![N, 1]⟩ w)
    (upd : (⟨2, ![N, C]⟩ : Shape).Idx → EReal) (s : Fin S) (f : Fin C) :
    Ideal.hostScatterAdd (poolDims S N C wf) x idx upd (ix2 s f)
      = x (ix2 s f) + ∑ n : Fin N, (if (idx (ix2 n (0 : Fin 1))).toInt = (s.val : ℤ) then upd (ix2 n f) else 0) := by
  unfold Ideal.hostScatterAdd
  congr 1
  rw [Finset.sum_filter, sum_idx2]
  refine Finset.sum_congr rfl (fun n _ => ?_)
  simp only [resultIdx_pool]
  by_cases h : (idx (ix2 n (0 : Fin 1))).toInt = (s.val : ℤ)
  · simp [h]
  · simp [h]

end

/-- FOUR `[R, C]` PIECES LAID SIDE BY SIDE, READ AT `(r, g)`: piece `g / C` at `(r, g % C)`. -/
theorem concat4_apply {α : Type} {R C C4 : ℕ}
    (hc : Shape.Concatenates [⟨2, ![R, C]⟩, ⟨2, ![R, C]⟩, ⟨2, ![R, C]⟩, ⟨2, ![R, C]⟩] ⟨2, ![R, C4]⟩ 1)
    (G : Fin 4 → (⟨2, ![R, C]⟩ : Shape).Idx → α) (r : Fin R) (g : Fin C4) (k : Fin 4) (f : Fin C)
    (hk : g.val / C = k.val) (hf : g.val % C = f.val) :
    concatenate ⟨2, ![R, C4]⟩ 1 [⟨⟨2, ![R, C]⟩, G 0⟩, ⟨⟨2, ![R, C]⟩, G 1⟩, ⟨⟨2, ![R, C]⟩, G 2⟩, ⟨⟨2, ![R, C]⟩, G 3⟩] hc (ix2 r g)
      = G k (ix2 r f) := by
  refine concatenate_ofFn_apply (t := ⟨2, ![R, C4]⟩) (s₁ := ⟨2, ![R, C]⟩) (1 : Fin 2) G hc rfl C rfl (ix2 r g) k hk (ix2 r f) hf.symm ?_
  intro b hb
  match b with
  | ⟨0, _⟩ => rfl
  | ⟨1, _⟩ => exact absurd rfl hb

/-- SEGMENT SUMS OF FOUR ARRAYS, SIDE BY SIDE: summing each of four `[N, C]` arrays into `[S, C]` by the same row
    numbers (each sum started from an array `zK`) and laying the four results side by side is summing the four arrays
    laid side by side into `[S, 4C]` (started from `zR`), when the two starting arrays hold one common value. Element
    `(s, g)` of either side is that value plus the sum, over the rows `n` whose number is `s`, of array `g / C` at
    `(n, g % C)`. -/
theorem pool_concat4 {S N C C4 w : ℕ} (hC4 : C4 = 4 * C)
    (wfK : ScatterDims.WF ⟨2, ![S, C]⟩ ⟨2, ![N, 1]⟩ ⟨2, ![N, C]⟩ [1] [0] [0] 1)
    (wfR : ScatterDims.WF ⟨2, ![S, C4]⟩ ⟨2, ![N, 1]⟩ ⟨2, ![N, C4]⟩ [1] [0] [0] 1)
    (hcK : Shape.Concatenates [⟨2, ![S, C]⟩, ⟨2, ![S, C]⟩, ⟨2, ![S, C]⟩, ⟨2, ![S, C]⟩] ⟨2, ![S, C4]⟩ 1)
    (hcR : Shape.Concatenates [⟨2, ![N, C]⟩, ⟨2, ![N, C]⟩, ⟨2, ![N, C]⟩, ⟨2, ![N, C]⟩] ⟨2, ![N, C4]⟩ 1)
    (zK : (⟨2, ![S, C]⟩ : Shape).Idx → EReal) (zR : (⟨2, ![S, C4]⟩ : Shape).Idx → EReal)
    (hz : ∀ i j, zR i = zK j)
    (idx : IVec ⟨2, ![N, 1]⟩ w) (h0 h1 h2 h3 : (⟨2, ![N, C]⟩ : Shape).Idx → EReal) :
    concatenate ⟨2, ![S, C4]⟩ 1
        [⟨⟨2, ![S, C]⟩, Ideal.hostScatterAdd (poolDims S N C wfK) zK idx h0⟩,
         ⟨⟨2, ![S, C]⟩, Ideal.hostScatterAdd (poolDims S N C wfK) zK idx h1⟩,
         ⟨⟨2, ![S, C]⟩, Ideal.hostScatterAdd (poolDims S N C wfK) zK idx h2⟩,
         ⟨⟨2, ![S, C]⟩, Ideal.hostScatterAdd (poolDims S N C wfK) zK idx h3⟩] hcK
      = Ideal.hostScatterAdd (poolDims S N C4 wfR) zR idx
          (concatenate ⟨2, ![N, C4]⟩ 1
            [⟨⟨2, ![N, C]⟩, h0⟩, ⟨⟨2, ![N, C]⟩, h1⟩, ⟨⟨2, ![N, C]⟩, h2⟩, ⟨⟨2, ![N, C]⟩, h3⟩] hcR) := by
  funext j
  obtain ⟨s, g, rfl⟩ : ∃ s g, j = ix2 s g := ⟨j 0, j 1, eq_ix2 j⟩
  -- the piece `k = g / C` and the column `f = g % C` inside it
  have hg : g.val < 4 * C := hC4 ▸ g.isLt
  have hC : 0 < C := by omega
  let k : Fin 4 := ⟨g.val / C, (Nat.div_lt_iff_lt_mul hC).mpr hg⟩
  let f : Fin C := ⟨g.val % C, Nat.mod_lt _ hC⟩
  let H : Fin 4 → (⟨2, ![N, C]⟩ : Shape).Idx → EReal := fun q =>
    match q with | ⟨0, _⟩ => h0 | ⟨1, _⟩ => h1 | ⟨2, _⟩ => h2 | ⟨3, _⟩ => h3
  have hL := concat4_apply hcK (fun q => Ideal.hostScatterAdd (poolDims S N C wfK) zK idx (H q)) s g k f rfl rfl
  have hR : ∀ n : Fin N, concatenate ⟨2, ![N, C4]⟩ 1
      [⟨⟨2, ![N, C]⟩, h0⟩, ⟨⟨2, ![N, C]⟩, h1⟩, ⟨⟨2, ![N, C]⟩, h2⟩, ⟨⟨2, ![N, C]⟩, h3⟩] hcR (ix2 n g) = H k (ix2 n f) :=
    fun n => concat4_apply hcR H n g k f rfl rfl
  refine hL.trans ?_
  rw [scatterAdd_pool_apply, scatterAdd_pool_apply, hz (ix2 s g) (ix2 s f)]
  congr 1
  refine Finset.sum_congr rfl (fun n _ => ?_)
  rw [hR n]

end Cert.LibSegPool

end
-- ==== Proof.IdealBridge.lean ====
/-
  The kernel's program and the reference compute one function.

  Layer by layer the array a pallas call leaves is the reference's layer output: entry (r, q) of either is the same
  two-matrix perceptron entry of row r of (activations + neighbour sums), with the same weights and biases; the neighbour
  sums are the same host operations applied to equal activations. At the end the kernel's program pools the four
  activation arrays per segment separately and lays the results side by side, the reference lays the four arrays side by
  side and pools once: the same sums, since a pooled entry only adds entries of its own column.
-/
import proofs.«168674_j7438883357611_2_alg».proof.Proof.IdealChain
import proofs.«168674_j7438883357611_2_alg».proof.Proof.IdealFinal0
import proofs.«168674_j7438883357611_2_alg».proof.Proof.IdealFinal1
import proofs.«168674_j7438883357611_2_alg».proof.Proof.IdealFinal2
import proofs.«168674_j7438883357611_2_alg».proof.Proof.LayerEntry
import proofs.«168674_j7438883357611_2_alg».proof.Proof.LibSegPool
import proofs.«168674_j7438883357611_2_alg».proof.Proof.Gen.ReferenceIdeal.Read

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.LayerEntry Cert.LibSegPool

/-! ## The reference's neighbour sums are the host's shared function -/

theorem agg_ref1 (x0 : FVec Ideal S50000x128 .f32) (x1 : IVec S2x800000 32) :
    Cert.ReferenceIdeal.Read.val_main_v13 (F := Ideal) x0 x1 = aggOf x0 (srcOf x1) (dstOf x1) := by
  simp only [Cert.ReferenceIdeal.Read.val_main_v13, Cert.ReferenceIdeal.Read.val_main_v12, Cert.ReferenceIdeal.Read.val_main_v11, Cert.ReferenceIdeal.Read.val_main_v10, Cert.ReferenceIdeal.Read.val_main_v9, Cert.ReferenceIdeal.Read.val_main_v8, Cert.ReferenceIdeal.Read.val_main_v7, Cert.ReferenceIdeal.Read.val_main_v6, Cert.ReferenceIdeal.Read.val_main_v5, Cert.ReferenceIdeal.Read.val_main_v4, Cert.ReferenceIdeal.Read.val_main_v3, Cert.ReferenceIdeal.Read.val_main_v2, Cert.ReferenceIdeal.Read.val_main_v1, Cert.ReferenceIdeal.Read.val_main_v0, Cert.ReferenceIdeal.Read.val_main_c, Cert.ReferenceIdeal.Read.val_main_c_0, Cert.ReferenceIdeal.Read.val_main_cst, aggOf, srcOf, dstOf]
  rfl

theorem agg_ref2 (x0 : FVec Ideal S50000x128 .f32) (x1 : IVec S2x800000 32) (x3 : FVec Ideal S3x128x128 .f32) (x4 : FVec Ideal S3x128 .f32)
    (x5 : FVec Ideal S3x128x128 .f32) (x6 : FVec Ideal S3x128 .f32) :
    Cert.ReferenceIdeal.Read.val_main_v41 (F := Ideal) x0 x1 x3 x4 x5 x6
      = aggOf (Cert.ReferenceIdeal.Read.val_main_v31 (F := Ideal) x0 x1 x3 x4 x5 x6) (srcOf x1) (dstOf x1) := by
  simp only [Cert.ReferenceIdeal.Read.val_main_v41, Cert.ReferenceIdeal.Read.val_main_v40, Cert.ReferenceIdeal.Read.val_main_v39, Cert.ReferenceIdeal.Read.val_main_v38, Cert.ReferenceIdeal.Read.val_main_v37, Cert.ReferenceIdeal.Read.val_main_v36, Cert.ReferenceIdeal.Read.val_main_v35, Cert.ReferenceIdeal.Read.val_main_v34, Cert.ReferenceIdeal.Read.val_main_v33, Cert.ReferenceIdeal.Read.val_main_v32, Cert.ReferenceIdeal.Read.val_main_v3, Cert.ReferenceIdeal.Read.val_main_v2, Cert.ReferenceIdeal.Read.val_main_v1, Cert.ReferenceIdeal.Read.val_main_v0, Cert.ReferenceIdeal.Read.val_main_c_1, Cert.ReferenceIdeal.Read.val_main_c_2, Cert.ReferenceIdeal.Read.val_main_cst_3, aggOf, srcOf, dstOf]
  rfl

theorem agg_ref3 (x0 : FVec Ideal S50000x128 .f32) (x1 : IVec S2x800000 32) (x3 : FVec Ideal S3x128x128 .f32) (x4 : FVec Ideal S3x128 .f32)
    (x5 : FVec Ideal S3x128x128 .f32) (x6 : FVec Ideal S3x128 .f32) :
    Cert.ReferenceIdeal.Read.val_main_v69 (F := Ideal) x0 x1 x3 x4 x5 x6
      = aggOf (Cert.ReferenceIdeal.Read.val_main_v59 (F := Ideal) x0 x1 x3 x4 x5 x6) (srcOf x1) (dstOf x1) := by
  simp only [Cert.ReferenceIdeal.Read.val_main_v69, Cert.ReferenceIdeal.Read.val_main_v68, Cert.ReferenceIdeal.Read.val_main_v67, Cert.ReferenceIdeal.Read.val_main_v66, Cert.ReferenceIdeal.Read.val_main_v65, Cert.ReferenceIdeal.Read.val_main_v64, Cert.ReferenceIdeal.Read.val_main_v63, Cert.ReferenceIdeal.Read.val_main_v62, Cert.ReferenceIdeal.Read.val_main_v61, Cert.ReferenceIdeal.Read.val_main_v60, Cert.ReferenceIdeal.Read.val_main_v3, Cert.ReferenceIdeal.Read.val_main_v2, Cert.ReferenceIdeal.Read.val_main_v1, Cert.ReferenceIdeal.Read.val_main_v0, Cert.ReferenceIdeal.Read.val_main_c_4, Cert.ReferenceIdeal.Read.val_main_c_5, Cert.ReferenceIdeal.Read.val_main_cst_6, aggOf, srcOf, dstOf]
  rfl

variable (m : (ℓ : Loc nD τ sig) → Buf (Elt Ideal) ℓ) (c : Dev nD)

/-! ## Layer by layer -/

/-- What call 0 leaves is the reference's first layer output. -/
theorem h1_eq : h1 m c = Cert.ReferenceIdeal.Read.val_main_v31 (F := Ideal) (a0 m c) (a1 m c) (a3 m c) (a4 m c) (a5 m c) (a6 m c) := by
  funext i
  obtain ⟨r, q, rfl⟩ : ∃ (r : Fin 50000) (q : Fin 128), i = ix2 r q := ⟨i 0, i 1, eq_ix2 i⟩
  refine (final0_apply (B1 m) c r q).trans ?_
  refine Eq.trans ?_ (ref1_entry (a0 m c) (a1 m c) (a3 m c) (a4 m c) (a5 m c) (a6 m c) r q).symm
  have e0 : in0_0 (B1 m) c = a0 m c := W1_arg0 m c
  have e1 : in0_1 (B1 m) c = Cert.ReferenceIdeal.Read.val_main_v13 (F := Ideal) (a0 m c) (a1 m c) := (W1_v15 m c).trans (agg_ref1 _ _).symm
  have e2 : ∀ j k : Fin 128, in0_2 (B1 m) c (ix2 j k) = a3 m c (ix3 (0 : Fin 3) j k) := fun j k => by
    rw [show in0_2 (B1 m) c = w0Of (narrow (a3 m c)) from W1_v17 m c]
    exact weight_entry_0 _ _ _ _ j k
  have e3 : ∀ k : Fin 128, in0_3 (B1 m) c (ix2 (0 : Fin 1) k) = a4 m c (ix2 (0 : Fin 3) k) := fun k => by
    rw [show in0_3 (B1 m) c = b0Of (a4 m c) from W1_v24 m c]
    exact bias_entry_0 _ _ _ _ k
  have e4 : ∀ j k : Fin 128, in0_4 (B1 m) c (ix2 j k) = a5 m c (ix3 (0 : Fin 3) j k) := fun j k => by
    rw [show in0_4 (B1 m) c = w0Of (narrow (a5 m c)) from W1_v21 m c]
    exact weight_entry_0 _ _ _ _ j k
  have e5 : ∀ k : Fin 128, in0_5 (B1 m) c (ix2 (0 : Fin 1) k) = a6 m c (ix2 (0 : Fin 3) k) := fun k => by
    rw [show in0_5 (B1 m) c = b0Of (a6 m c) from W1_v25 m c]
    exact bias_entry_0 _ _ _ _ k
  unfold row0
  simp only [e0, e1, e2, e3, e4, e5]

/-- What call 1 leaves is the reference's second layer output. -/
theorem h2_eq : h2 m c = Cert.ReferenceIdeal.Read.val_main_v59 (F := Ideal) (a0 m c) (a1 m c) (a3 m c) (a4 m c) (a5 m c) (a6 m c) := by
  funext i
  obtain ⟨r, q, rfl⟩ : ∃ (r : Fin 50000) (q : Fin 128), i = ix2 r q := ⟨i 0, i 1, eq_ix2 i⟩
  refine (final1_apply (B3 m) c r q).trans ?_
  refine Eq.trans ?_ (ref2_entry (a0 m c) (a1 m c) (a3 m c) (a4 m c) (a5 m c) (a6 m c) r q).symm
  have e0 : in1_0 (B3 m) c = Cert.ReferenceIdeal.Read.val_main_v31 (F := Ideal) (a0 m c) (a1 m c) (a3 m c) (a4 m c) (a5 m c) (a6 m c) :=
    (W3_v26 m c).trans (h1_eq m c)
  have e1 : in1_1 (B3 m) c = Cert.ReferenceIdeal.Read.val_main_v41 (F := Ideal) (a0 m c) (a1 m c) (a3 m c) (a4 m c) (a5 m c) (a6 m c) := by
    refine (W3_v36 m c).trans ?_
    rw [h1_eq m c]
    exact (agg_ref2 _ _ _ _ _ _).symm
  have e2 : ∀ j k : Fin 128, in1_2 (B3 m) c (ix2 j k) = a3 m c (ix3 (1 : Fin 3) j k) := fun j k => by
    rw [show in1_2 (B3 m) c = w1Of (narrow (a3 m c)) from W3_v38 m c]
    exact weight_entry_1 _ _ _ _ j k
  have e3 : ∀ k : Fin 128, in1_3 (B3 m) c (ix2 (0 : Fin 1) k) = a4 m c (ix2 (1 : Fin 3) k) := fun k => by
    rw [show in1_3 (B3 m) c = b1Of (a4 m c) from W3_v45 m c]
    exact bias_entry_1 _ _ _ _ k
  have e4 : ∀ j k : Fin 128, in1_4 (B3 m) c (ix2 j k) = a5 m c (ix3 (1 : Fin 3) j k) := fun j k => by
    rw [show in1_4 (B3 m) c = w1Of (narrow (a5 m c)) from W3_v42 m c]
    exact weight_entry_1 _ _ _ _ j k
  have e5 : ∀ k : Fin 128, in1_5 (B3 m) c (ix2 (0 : Fin 1) k) = a6 m c (ix2 (1 : Fin 3) k) := fun k => by
    rw [show in1_5 (B3 m) c = b1Of (a6 m c) from W3_v46 m c]
    exact bias_entry_1 _ _ _ _ k
  unfold row1
  simp only [e0, e1, e2, e3, e4, e5]

/-- What call 2 leaves is the reference's third layer output. -/
theorem h3_eq : h3 m c = Cert.ReferenceIdeal.Read.val_main_v87 (F := Ideal) (a0 m c) (a1 m c) (a3 m c) (a4 m c) (a5 m c) (a6 m c) := by
  funext i
  obtain ⟨r, q, rfl⟩ : ∃ (r : Fin 50000) (q : Fin 128), i = ix2 r q := ⟨i 0, i 1, eq_ix2 i⟩
  refine (final2_apply (B5 m) c r q).trans ?_
  refine Eq.trans ?_ (ref3_entry (a0 m c) (a1 m c) (a3 m c) (a4 m c) (a5 m c) (a6 m c) r q).symm
  have e0 : in2_0 (B5 m) c = Cert.ReferenceIdeal.Read.val_main_v59 (F := Ideal) (a0 m c) (a1 m c) (a3 m c) (a4 m c) (a5 m c) (a6 m c) :=
    (W5_v47 m c).trans (h2_eq m c)
  have e1 : in2_1 (B5 m) c = Cert.ReferenceIdeal.Read.val_main_v69 (F := Ideal) (a0 m c) (a1 m c) (a3 m c) (a4 m c) (a5 m c) (a6 m c) := by
    refine (W5_v57 m c).trans ?_
    rw [h2_eq m c]
    exact (agg_ref3 _ _ _ _ _ _).symm
  have e2 : ∀ j k : Fin 128, in2_2 (B5 m) c (ix2 j k) = a3 m c (ix3 (2 : Fin 3) j k) := fun j k => by
    rw [show in2_2 (B5 m) c = w2Of (narrow (a3 m c)) from W5_v59 m c]
    exact weight_entry_2 _ _ _ _ j k
  have e3 : ∀ k : Fin 128, in2_3 (B5 m) c (ix2 (0 : Fin 1) k) = a4 m c (ix2 (2 : Fin 3) k) := fun k => by
    rw [show in2_3 (B5 m) c = b2Of (a4 m c) from W5_v66 m c]
    exact bias_entry_2 _ _ _ _ k
  have e4 : ∀ j k : Fin 128, in2_4 (B5 m) c (ix2 j k) = a5 m c (ix3 (2 : Fin 3) j k) := fun j k => by
    rw [show in2_4 (B5 m) c = w2Of (narrow (a5 m c)) from W5_v63 m c]
    exact weight_entry_2 _ _ _ _ j k
  have e5 : ∀ k : Fin 128, in2_5 (B5 m) c (ix2 (0 : Fin 1) k) = a6 m c (ix2 (2 : Fin 3) k) := fun k => by
    rw [show in2_5 (B5 m) c = b2Of (a6 m c) from W5_v67 m c]
    exact bias_entry_2 _ _ _ _ k
  unfold row2
  simp only [e0, e1, e2, e3, e4, e5]

/-! ## The result -/

/-- THE RESULT BUFFER at the end of the kernel's program is the reference's result term of the launch contents. -/
theorem result_eq : W7 m c (Proc.devRef .tc main_v81)
    = Cert.ReferenceIdeal.Read.val_main_v91 (F := Ideal) (a0 m c) (a1 m c) (a2 m c) (a3 m c) (a4 m c) (a5 m c) (a6 m c) := by
  rw [W7_v81, h1_eq, h2_eq, h3_eq]
  simp only [Cert.ReferenceIdeal.Read.val_main_v91, Cert.ReferenceIdeal.Read.val_main_v90, Cert.ReferenceIdeal.Read.val_main_v89, Cert.ReferenceIdeal.Read.val_main_v88, Cert.ReferenceIdeal.Read.val_main_cst_7, poolOf]
  exact pool_concat4 (S := 5000) (N := 50000) (C := 128) (C4 := 512) (by norm_num) (by decide) (by decide) _ _ _ _ (fun _ _ => rfl) _ _ _ _ _

end Cert.KernelIdeal.Hand

end
-- ==== Proof.lean ====
/-
  Three layers of message passing, then pooling, on fifty thousand nodes: the kernel's program runs each layer's
  two-matrix perceptron as a pallas call over ten row tiles and pools the four activation arrays one by one; the reference
  does every step on the host and pools the four arrays laid side by side. Over the extended reals the two results are
  equal element by element.

  The three frames: each program runs to its end without a fault and leaves its seven argument arrays as launched (for the
  two programs with pallas calls, by running @main as four host stretches around three calls; for the reference, by its
  run as a line of host operations). The idealization rewrote nothing, so there is nothing to preserve. The value claim:
  both results are the reference's result term of the launch contents.
-/
import proofs.«168674_j7438883357611_2_alg».proof.Defs
import proofs.«168674_j7438883357611_2_alg».proof.Proof.Gen.Kernel
import proofs.«168674_j7438883357611_2_alg».proof.Proof.Gen.KernelIdeal
import proofs.«168674_j7438883357611_2_alg».proof.Proof.Gen.ReferenceIdeal
import proofs.«168674_j7438883357611_2_alg».proof.Proof.Gen.Pre_finite_inputs
import proofs.«168674_j7438883357611_2_alg».proof.Proof.BitsRun
import proofs.«168674_j7438883357611_2_alg».proof.Proof.IdealBridge
import proofs.«168674_j7438883357611_2_alg».proof.Proof.Gen.ReferenceIdeal.Read
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

open Cert.KernelIdeal Cert.KernelIdeal.Hand in
/-- Both programs end with their result at the reference's result term of the (agreeing) launch contents. -/
theorem algebraic : Cert.algebraic_KernelIdeal_ReferenceIdeal := by
  intro m ρ m' ρ' _ hagree
  refine ⟨fun c => Cert.ReferenceIdeal.Read.val_main_v91 (F := Ideal) (a0 m c) (a1 m c) (a2 m c) (a3 m c) (a4 m c) (a5 m c) (a6 m c), ?_, ?_⟩
  · refine (θ_run Cert.KernelIdeal.defs _ _).mono (fun r h c => ?_) (Cert.KernelIdeal.Hand.run_all m ρ)
    exact ⟨(h c _ (mem_uc main_v81 (by decide))).trans (result_eq m c),
      (h c _ (mem_uc main_arg0 (by decide))).trans (W7_main_arg0 m c),
      (h c _ (mem_uc main_arg1 (by decide))).trans (W7_main_arg1 m c),
      (h c _ (mem_uc main_arg2 (by decide))).trans (W7_main_arg2 m c),
      (h c _ (mem_uc main_arg3 (by decide))).trans (W7_main_arg3 m c),
      (h c _ (mem_uc main_arg4 (by decide))).trans (W7_main_arg4 m c),
      (h c _ (mem_uc main_arg5 (by decide))).trans (W7_main_arg5 m c),
      (h c _ (mem_uc main_arg6 (by decide))).trans (W7_main_arg6 m c)⟩
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v91_eq, (hagree c).1, (hagree c).2.1, (hagree c).2.2.1, (hagree c).2.2.2.1,
      (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
